-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v196)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S32 .f32) (main_arg17 : FVec F S32x10 .f32) (main_arg18 : FVec F S10 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x10 .f32 := Host.absf main_arg17
  let main_cst_28 : FVec F S_ .f32 := constant S_ .f32 0x7F800000#32
  let main_v75 : FVec F S32x10 .f32 := broadcastInDim S32x10 ![] bcast_S_S32x10 main_cst_28
  let main_v76 : IVec S32x10 1 := cmpf .olt main_v74 main_v75
  let main_c_29 : IVec S_ 1 := constantI S_ 1 1#1
  let main_v77 : IVec S_ 1 := (fun x v => Host.reduce IntOp.andi x v reducesTo_S32x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S64x32 .f32) (main_arg14 : FVec F S32 .f32) (main_arg15 : FVec F S32 .f32) (main_arg16 : FVec F S32 .f32) (main_arg17 : FVec F S32x10 .f32) (main_arg18 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64x32 .f32) (main_arg14 : FVec F S32 .f32) (main_arg15 : FVec F S32 .f32) (main_arg16 : FVec F S32 .f32) (main_arg17 : FVec F S32x10 .f32) (main_arg18 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S3x64 .f32) (main_arg7 : FVec F S3x64 .f32) (main_arg8 : FVec F S3x64 .f32) (main_arg9 : FVec F S64x64 .f32) (main_arg10 : FVec F S64 .f32) (main_arg11 : FVec F S64 .f32) (main_arg12 : FVec F S64 .f32) (main_arg13 : FVec F S64x32 .f32) (main_arg14 : FVec F S32 .f32) (main_arg15 : FVec F S32 .f32) (main_arg16 : FVec F S32 .f32) (main_arg17 : FVec F S32x10 .f32) (main_arg18 : FVec F S10 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x64 .f32) (main_arg1 : IVec S2x1200000 32) (main_arg2 : IVec S100000 32) (main_arg3 : FVec F S3x64x64 .f32) (main_arg4 : FVec F S3x64 .f32) (main_arg5 : FVec F S3x64x64 .f32) (main_arg6 : FVec F S3x64 .f32) (main_arg7 : FVec F S3x64 .f32) (main_arg8 : FVec F S3x64 .f32) (main_arg9 : FVec F S64x64 .f32) (main_arg10 : FVec F S64 .f32) (main_arg11 : FVec F S64 .f32) (main_arg12 : FVec F S64 .f32) (main_arg13 : FVec F S64x32 .f32) (main_arg14 : FVec F S32 .f32) (main_arg15 : FVec F S32 .f32) (main_arg16 : FVec F S32 .f32) (main_arg17 : FVec F S32x10 .f32) (main_arg18 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S1x64 : Shape := ⟨2, ![1, 64]⟩
abbrev S2000x64 : Shape := ⟨2, ![2000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S512x10 : Shape := ⟨2, ![512, 10]⟩
abbrev S1x10 : Shape := ⟨2, ![1, 10]⟩

abbrev nBuf : Space → Nat
  | .hbm => 255
  | .vmem => 54
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S64x64, .f32⟩
  | 10 => ⟨S64, .f32⟩
  | 11 => ⟨S64, .f32⟩
  | 12 => ⟨S64, .f32⟩
  | 13 => ⟨S64x32, .f32⟩
  | 14 => ⟨S32, .f32⟩
  | 15 => ⟨S32, .f32⟩
  | 16 => ⟨S32, .f32⟩
  | 17 => ⟨S32x10, .f32⟩
  | 18 => ⟨S10, .f32⟩
  | 19 => ⟨S1x1200000, .i32⟩
  | 20 => ⟨S1200000, .i32⟩
  | 21 => ⟨S1x1200000, .i32⟩
  | 22 => ⟨S1200000, .i32⟩
  | 23 => ⟨S_, .i32⟩
  | 24 => ⟨S1200000, .i32⟩
  | 25 => ⟨S1200000, .i1⟩
  | 26 => ⟨S_, .i32⟩
  | 27 => ⟨S1200000, .i32⟩
  | 28 => ⟨S1200000, .i32⟩
  | 29 => ⟨S1200000, .i32⟩
  | 30 => ⟨S1200000x1, .i32⟩
  | 31 => ⟨S1200000x64, .f32⟩
  | 32 => ⟨S_, .f32⟩
  | 33 => ⟨S100000x64, .f32⟩
  | 34 => ⟨S1200000x1, .i32⟩
  | 35 => ⟨S100000x64, .f32⟩
  | 36 => ⟨S1x64x64, .f32⟩
  | 37 => ⟨S64x64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S1x64, .f32⟩
  | 46 => ⟨S100000x64, .f32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S64, .f32⟩
  | 64 => ⟨S1x64, .f32⟩
  | 65 => ⟨S64, .f32⟩
  | 66 => ⟨S1x64, .f32⟩
  | 67 => ⟨S1x64, .f32⟩
  | 68 => ⟨S100000x64, .f32⟩
  | 69 => ⟨S_, .i32⟩
  | 70 => ⟨S1200000, .i32⟩
  | 71 => ⟨S1200000, .i1⟩
  | 72 => ⟨S_, .i32⟩
  | 73 => ⟨S1200000, .i32⟩
  | 74 => ⟨S1200000, .i32⟩
  | 75 => ⟨S1200000, .i32⟩
  | 76 => ⟨S1200000x1, .i32⟩
  | 77 => ⟨S1200000x64, .f32⟩
  | 78 => ⟨S_, .f32⟩
  | 79 => ⟨S100000x64, .f32⟩
  | 80 => ⟨S1200000x1, .i32⟩
  | 81 => ⟨S100000x64, .f32⟩
  | 82 => ⟨S1x64x64, .f32⟩
  | 83 => ⟨S64x64, .f32⟩
  | 84 => ⟨S1x64, .f32⟩
  | 85 => ⟨S64, .f32⟩
  | 86 => ⟨S1x64x64, .f32⟩
  | 87 => ⟨S64x64, .f32⟩
  | 88 => ⟨S1x64, .f32⟩
  | 89 => ⟨S64, .f32⟩
  | 90 => ⟨S1x64, .f32⟩
  | 91 => ⟨S1x64, .f32⟩
  | 92 => ⟨S100000x64, .f32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S100000x64, .f32⟩
  | 100 => ⟨S100000x64, .f32⟩
  | 101 => ⟨S100000x64, .f32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S1x64, .f32⟩
  | 109 => ⟨S64, .f32⟩
  | 110 => ⟨S1x64, .f32⟩
  | 111 => ⟨S64, .f32⟩
  | 112 => ⟨S1x64, .f32⟩
  | 113 => ⟨S1x64, .f32⟩
  | 114 => ⟨S100000x64, .f32⟩
  | 115 => ⟨S_, .i32⟩
  | 116 => ⟨S1200000, .i32⟩
  | 117 => ⟨S1200000, .i1⟩
  | 118 => ⟨S_, .i32⟩
  | 119 => ⟨S1200000, .i32⟩
  | 120 => ⟨S1200000, .i32⟩
  | 121 => ⟨S1200000, .i32⟩
  | 122 => ⟨S1200000x1, .i32⟩
  | 123 => ⟨S1200000x64, .f32⟩
  | 124 => ⟨S_, .f32⟩
  | 125 => ⟨S100000x64, .f32⟩
  | 126 => ⟨S1200000x1, .i32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S1x64, .f32⟩
  | 3 => ⟨S64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S1x64, .f32⟩
  | 10 => ⟨S100000x64, .f32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S100000x64, .f32⟩
  | 18 => ⟨S100000x64, .f32⟩
  | 19 => ⟨S100000x64, .f32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S1x64, .f32⟩
  | 27 => ⟨S64, .f32⟩
  | 28 => ⟨S1x64, .f32⟩
  | 29 => ⟨S64, .f32⟩
  | 30 => ⟨S1x64, .f32⟩
  | 31 => ⟨S1x64, .f32⟩
  | 32 => ⟨S100000x64, .f32⟩
  | 33 => ⟨S_, .f32⟩
  | 34 => ⟨S512x64, .f32⟩
  | 35 => ⟨S100000x1, .i32⟩
  | 36 => ⟨S512x64, .f32⟩
  | 37 => ⟨S_, .f32⟩
  | 38 => ⟨S100000, .f32⟩
  | 39 => ⟨S_, .f32⟩
  | 40 => ⟨S512, .f32⟩
  | 41 => ⟨S100000x1, .i32⟩
  | 42 => ⟨S512, .f32⟩
  | 43 => ⟨S_, .f32⟩
  | 44 => ⟨S512, .f32⟩
  | 45 => ⟨S512, .f32⟩
  | 46 => ⟨S512x1, .f32⟩
  | 47 => ⟨S512x64, .f32⟩
  | 48 => ⟨S512x64, .f32⟩
  | 49 => ⟨S512x64, .f32⟩
  | 50 => ⟨S1x64, .f32⟩
  | 51 => ⟨S512x64, .f32⟩
  | 52 => ⟨S512x64, .f32⟩
  | 53 => ⟨S_, .f32⟩
  | 54 => ⟨S64, .f32⟩
  | 55 => ⟨S_, .f32⟩
  | 56 => ⟨S64, .f32⟩
  | 57 => ⟨S64, .f32⟩
  | 58 => ⟨S1x64, .f32⟩
  | 59 => ⟨S512x64, .f32⟩
  | 60 => ⟨S512x64, .f32⟩
  | 61 => ⟨S512x64, .f32⟩
  | 62 => ⟨S_, .f32⟩
  | 63 => ⟨S64, .f32⟩
  | 64 => ⟨S_, .f32⟩
  | 65 => ⟨S64, .f32⟩
  | 66 => ⟨S64, .f32⟩
  | 67 => ⟨S1x64, .f32⟩
  | 68 => ⟨S512x64, .f32⟩
  | 69 => ⟨S512x64, .f32⟩
  | 70 => ⟨S1x64, .f32⟩
  | 71 => ⟨S512x64, .f32⟩
  | 72 => ⟨S512x64, .f32⟩
  | 73 => ⟨S_, .f32⟩
  | 74 => ⟨S64, .f32⟩
  | 75 => ⟨S64, .f32⟩
  | 76 => ⟨S64, .f32⟩
  | 77 => ⟨S1x64, .f32⟩
  | 78 => ⟨S512x64, .f32⟩
  | 79 => ⟨S512x64, .f32⟩
  | 80 => ⟨S1x64, .f32⟩
  | 81 => ⟨S512x64, .f32⟩
  | 82 => ⟨S512x64, .f32⟩
  | 83 => ⟨S_, .f32⟩
  | 84 => ⟨S512x64, .f32⟩
  | 85 => ⟨S512x64, .f32⟩
  | 86 => ⟨S512x32, .f32⟩
  | 87 => ⟨S1x32, .f32⟩
  | 88 => ⟨S512x32, .f32⟩
  | 89 => ⟨S512x32, .f32⟩
  | 90 => ⟨S_, .f32⟩
  | 91 => ⟨S32, .f32⟩
  | 92 => ⟨S_, .f32⟩
  | 93 => ⟨S32, .f32⟩
  | 94 => ⟨S32, .f32⟩
  | 95 => ⟨S1x32, .f32⟩
  | 96 => ⟨S512x32, .f32⟩
  | 97 => ⟨S512x32, .f32⟩
  | 98 => ⟨S512x32, .f32⟩
  | 99 => ⟨S_, .f32⟩
  | 100 => ⟨S32, .f32⟩
  | 101 => ⟨S_, .f32⟩
  | 102 => ⟨S32, .f32⟩
  | 103 => ⟨S32, .f32⟩
  | 104 => ⟨S1x32, .f32⟩
  | 105 => ⟨S512x32, .f32⟩
  | 106 => ⟨S512x32, .f32⟩
  | 107 => ⟨S1x32, .f32⟩
  | 108 => ⟨S512x32, .f32⟩
  | 109 => ⟨S512x32, .f32⟩
  | 110 => ⟨S_, .f32⟩
  | 111 => ⟨S32, .f32⟩
  | 112 => ⟨S32, .f32⟩
  | 113 => ⟨S32, .f32⟩
  | 114 => ⟨S1x32, .f32⟩
  | 115 => ⟨S512x32, .f32⟩
  | 116 => ⟨S512x32, .f32⟩
  | 117 => ⟨S1x32, .f32⟩
  | 118 => ⟨S512x32, .f32⟩
  | 119 => ⟨S512x32, .f32⟩
  | 120 => ⟨S_, .f32⟩
  | 121 => ⟨S512x32, .f32⟩
  | 122 => ⟨S512x32, .f32⟩
  | 123 => ⟨S512x10, .f32⟩
  | 124 => ⟨S1x10, .f32⟩
  | 125 => ⟨S512x10, .f32⟩
  | 126 => ⟨S512x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S1x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_5 : Ref sig .tc := ⟨.hbm, 69, rfl⟩
abbrev main_v43 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_8 : Ref sig .tc := ⟨.hbm, 93, rfl⟩
abbrev main_v64 : Ref sig .tc := ⟨.hbm, 94, rfl⟩
abbrev main_v65 : Ref sig .tc := ⟨.hbm, 95, rfl⟩
abbrev main_cst_9 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_10 : Ref sig .tc := ⟨.hbm, 102, rfl⟩
abbrev main_v71 : Ref sig .tc := ⟨.hbm, 103, rfl⟩
abbrev main_v72 : Ref sig .tc := ⟨.hbm, 104, rfl⟩
abbrev main_cst_11 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_12 : Ref sig .tc := ⟨.hbm, 115, rfl⟩
abbrev main_v82 : Ref sig .tc := ⟨.hbm, 116, rfl⟩
abbrev main_v83 : Ref sig .tc := ⟨.hbm, 117, rfl⟩
abbrev main_c_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_14 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_15 : Ref sig .tc := ⟨.hbm, 139, rfl⟩
abbrev main_v103 : Ref sig .tc := ⟨.hbm, 140, rfl⟩
abbrev main_v104 : Ref sig .tc := ⟨.hbm, 141, rfl⟩
abbrev main_cst_16 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_17 : Ref sig .tc := ⟨.hbm, 148, rfl⟩
abbrev main_v110 : Ref sig .tc := ⟨.hbm, 149, rfl⟩
abbrev main_v111 : Ref sig .tc := ⟨.hbm, 150, rfl⟩
abbrev main_cst_18 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_19 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_20 : Ref sig .tc := ⟨.hbm, 165, rfl⟩
abbrev main_v124 : Ref sig .tc := ⟨.hbm, 166, rfl⟩
abbrev main_cst_21 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_22 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_23 : Ref sig .tc := ⟨.hbm, 181, rfl⟩
abbrev main_v137 : Ref sig .tc := ⟨.hbm, 182, rfl⟩
abbrev main_cst_24 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_25 : Ref sig .tc := ⟨.hbm, 190, rfl⟩
abbrev main_v144 : Ref sig .tc := ⟨.hbm, 191, rfl⟩
abbrev main_cst_26 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_27 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_call0_cst : Ref sig .tc := ⟨.hbm, 211, rfl⟩
abbrev main_call0_v0 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_28 : Ref sig .tc := ⟨.hbm, 218, rfl⟩
abbrev main_v167 : Ref sig .tc := ⟨.hbm, 219, rfl⟩
abbrev main_cst_29 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_30 : Ref sig .tc := ⟨.hbm, 227, rfl⟩
abbrev main_v174 : Ref sig .tc := ⟨.hbm, 228, rfl⟩
abbrev main_cst_31 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_cst_32 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_call1_cst : Ref sig .tc := ⟨.hbm, 248, rfl⟩
abbrev main_call1_v0 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  reducesTo_S512x64_S64_d0 : S512x64.ReducesTo [0] S64
  bcast_S_S64 : S_.BroadcastsInDim S64 (![] : Fin 0 → Fin S64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S32_d0 : S512x32.ReducesTo [0] S32
  bcast_S_S32 : S_.BroadcastsInDim S32 (![] : Fin 0 → Fin S32.rank)
  bcast_S_S512x32 : S_.BroadcastsInDim S512x32 (![] : Fin 0 → Fin S512x32.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x64_S2000x64_1_0_0_1_n_n_wf : DotDims.WF S2000x64 S64x64 S2000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []
  dot_S512x32_S32x10_S512x10_1_0_0_1_n_n_wf : DotDims.WF S512x32 S32x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .f32 = 32 ∨ (Rect.block (s := S100000x64) S2000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S100000x64.size a
  hwx5_5 : ∀ i : grid5.Coords, EltTy.bits .f32 = 32 ∨ (Rect.block (s := S100000x64) S2000x64.size (cc5_transform_5 i) (hinb5_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x10_S512x10_1_0_0_1_n_n : DotDims S512x32 S32x10 S512x10 where
  lhsContracting := [1]
  rhsContracting := [0]
  lhsNonContracting := [0]
  rhsNonContracting := [1]
  lhsBatch := []
  rhsBatch := []
  wf := dot_S512x32_S32x10_S512x10_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v63) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v102) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v102) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v113) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S512x10 : Shape := ⟨2, ![512, 10]⟩
abbrev S1x10 : Shape := ⟨2, ![1, 10]⟩

abbrev nBuf : Space → Nat
  | .hbm => 327
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S64x64, .f32⟩
  | 10 => ⟨S64, .f32⟩
  | 11 => ⟨S64, .f32⟩
  | 12 => ⟨S64, .f32⟩
  | 13 => ⟨S64x32, .f32⟩
  | 14 => ⟨S32, .f32⟩
  | 15 => ⟨S32, .f32⟩
  | 16 => ⟨S32, .f32⟩
  | 17 => ⟨S32x10, .f32⟩
  | 18 => ⟨S10, .f32⟩
  | 19 => ⟨S1x1200000, .i32⟩
  | 20 => ⟨S1200000, .i32⟩
  | 21 => ⟨S1x1200000, .i32⟩
  | 22 => ⟨S1200000, .i32⟩
  | 23 => ⟨S_, .i32⟩
  | 24 => ⟨S1200000, .i32⟩
  | 25 => ⟨S1200000, .i1⟩
  | 26 => ⟨S_, .i32⟩
  | 27 => ⟨S1200000, .i32⟩
  | 28 => ⟨S1200000, .i32⟩
  | 29 => ⟨S1200000, .i32⟩
  | 30 => ⟨S1200000x1, .i32⟩
  | 31 => ⟨S1200000x64, .f32⟩
  | 32 => ⟨S_, .f32⟩
  | 33 => ⟨S100000x64, .f32⟩
  | 34 => ⟨S1200000x1, .i32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1x64x64, .f32⟩
  | 49 => ⟨S64x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S64, .f32⟩
  | 58 => ⟨S1x64, .f32⟩
  | 59 => ⟨S64, .f32⟩
  | 60 => ⟨S_, .f32⟩
  | 61 => ⟨S64, .f32⟩
  | 62 => ⟨S_, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S64, .f32⟩
  | 82 => ⟨S64, .f32⟩
  | 83 => ⟨S64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .i32⟩
  | 94 => ⟨S1200000, .i32⟩
  | 95 => ⟨S1200000, .i1⟩
  | 96 => ⟨S_, .i32⟩
  | 97 => ⟨S1200000, .i32⟩
  | 98 => ⟨S1200000, .i32⟩
  | 99 => ⟨S1200000, .i32⟩
  | 100 => ⟨S1200000x1, .i32⟩
  | 101 => ⟨S1200000x64, .f32⟩
  | 102 => ⟨S_, .f32⟩
  | 103 => ⟨S100000x64, .f32⟩
  | 104 => ⟨S1200000x1, .i32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S1x64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S64, .f32⟩
  | 2 => ⟨S_, .f32⟩
  | 3 => ⟨S64, .f32⟩
  | 4 => ⟨S_, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S64, .f32⟩
  | 13 => ⟨S_, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S64, .f32⟩
  | 24 => ⟨S64, .f32⟩
  | 25 => ⟨S64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000x64, .f32⟩
  | 44 => ⟨S_, .f32⟩
  | 45 => ⟨S100000x64, .f32⟩
  | 46 => ⟨S1200000x1, .i32⟩
  | 47 => ⟨S100000x64, .f32⟩
  | 48 => ⟨S100000x64, .f32⟩
  | 49 => ⟨S1x64x64, .f32⟩
  | 50 => ⟨S64x64, .f32⟩
  | 51 => ⟨S100000x64, .f32⟩
  | 52 => ⟨S1x64, .f32⟩
  | 53 => ⟨S64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S1x64, .f32⟩
  | 69 => ⟨S64, .f32⟩
  | 70 => ⟨S1x64, .f32⟩
  | 71 => ⟨S64, .f32⟩
  | 72 => ⟨S_, .f32⟩
  | 73 => ⟨S64, .f32⟩
  | 74 => ⟨S_, .f32⟩
  | 75 => ⟨S64, .f32⟩
  | 76 => ⟨S64, .f32⟩
  | 77 => ⟨S1x64, .f32⟩
  | 78 => ⟨S100000x64, .f32⟩
  | 79 => ⟨S100000x64, .f32⟩
  | 80 => ⟨S100000x64, .f32⟩
  | 81 => ⟨S_, .f32⟩
  | 82 => ⟨S64, .f32⟩
  | 83 => ⟨S_, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S64, .f32⟩
  | 94 => ⟨S64, .f32⟩
  | 95 => ⟨S64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S_, .f32⟩
  | 106 => ⟨S512x64, .f32⟩
  | 107 => ⟨S100000x1, .i32⟩
  | 108 => ⟨S512x64, .f32⟩
  | 109 => ⟨S_, .f32⟩
  | 110 => ⟨S100000, .f32⟩
  | 111 => ⟨S_, .f32⟩
  | 112 => ⟨S512, .f32⟩
  | 113 => ⟨S100000x1, .i32⟩
  | 114 => ⟨S512, .f32⟩
  | 115 => ⟨S_, .f32⟩
  | 116 => ⟨S512, .f32⟩
  | 117 => ⟨S512, .f32⟩
  | 118 => ⟨S512x1, .f32⟩
  | 119 => ⟨S512x64, .f32⟩
  | 120 => ⟨S512x64, .f32⟩
  | 121 => ⟨S512x64, .f32⟩
  | 122 => ⟨S1x64, .f32⟩
  | 123 => ⟨S512x64, .f32⟩
  | 124 => ⟨S512x64, .f32⟩
  | 125 => ⟨S_, .f32⟩
  | 126 => ⟨S64, .f32⟩
  | 127 => ⟨S_, .f32⟩
  | _ => ⟨S100000x64, .f32⟩

abbrev hbmTy0_2 (i : Nat) : BufTy := match i % 128 with
  | 0 => ⟨S64, .f32⟩
  | 1 => ⟨S64, .f32⟩
  | 2 => ⟨S1x64, .f32⟩
  | 3 => ⟨S512x64, .f32⟩
  | 4 => ⟨S512x64, .f32⟩
  | 5 => ⟨S512x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S512x64, .f32⟩
  | 13 => ⟨S512x64, .f32⟩
  | 14 => ⟨S1x64, .f32⟩
  | 15 => ⟨S512x64, .f32⟩
  | 16 => ⟨S512x64, .f32⟩
  | 17 => ⟨S_, .f32⟩
  | 18 => ⟨S64, .f32⟩
  | 19 => ⟨S64, .f32⟩
  | 20 => ⟨S64, .f32⟩
  | 21 => ⟨S1x64, .f32⟩
  | 22 => ⟨S512x64, .f32⟩
  | 23 => ⟨S512x64, .f32⟩
  | 24 => ⟨S1x64, .f32⟩
  | 25 => ⟨S512x64, .f32⟩
  | 26 => ⟨S512x64, .f32⟩
  | 27 => ⟨S_, .f32⟩
  | 28 => ⟨S512x64, .f32⟩
  | 29 => ⟨S512x64, .f32⟩
  | 30 => ⟨S512x32, .f32⟩
  | 31 => ⟨S1x32, .f32⟩
  | 32 => ⟨S512x32, .f32⟩
  | 33 => ⟨S512x32, .f32⟩
  | 34 => ⟨S_, .f32⟩
  | 35 => ⟨S32, .f32⟩
  | 36 => ⟨S_, .f32⟩
  | 37 => ⟨S32, .f32⟩
  | 38 => ⟨S32, .f32⟩
  | 39 => ⟨S1x32, .f32⟩
  | 40 => ⟨S512x32, .f32⟩
  | 41 => ⟨S512x32, .f32⟩
  | 42 => ⟨S512x32, .f32⟩
  | 43 => ⟨S_, .f32⟩
  | 44 => ⟨S32, .f32⟩
  | 45 => ⟨S_, .f32⟩
  | 46 => ⟨S32, .f32⟩
  | 47 => ⟨S32, .f32⟩
  | 48 => ⟨S1x32, .f32⟩
  | 49 => ⟨S512x32, .f32⟩
  | 50 => ⟨S512x32, .f32⟩
  | 51 => ⟨S1x32, .f32⟩
  | 52 => ⟨S512x32, .f32⟩
  | 53 => ⟨S512x32, .f32⟩
  | 54 => ⟨S_, .f32⟩
  | 55 => ⟨S32, .f32⟩
  | 56 => ⟨S32, .f32⟩
  | 57 => ⟨S32, .f32⟩
  | 58 => ⟨S1x32, .f32⟩
  | 59 => ⟨S512x32, .f32⟩
  | 60 => ⟨S512x32, .f32⟩
  | 61 => ⟨S1x32, .f32⟩
  | 62 => ⟨S512x32, .f32⟩
  | 63 => ⟨S512x32, .f32⟩
  | 64 => ⟨S_, .f32⟩
  | 65 => ⟨S512x32, .f32⟩
  | 66 => ⟨S512x32, .f32⟩
  | 67 => ⟨S512x10, .f32⟩
  | 68 => ⟨S1x10, .f32⟩
  | 69 => ⟨S512x10, .f32⟩
  | 70 => ⟨S512x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call0_cst : Ref sig .tc := ⟨.hbm, 45, rfl⟩
abbrev main_call0_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_cst : Ref sig .tc := ⟨.hbm, 90, rfl⟩
abbrev main_call1_v0 : Ref sig .tc := ⟨.hbm, 91, rfl⟩
abbrev main_v61 : Ref sig .tc := ⟨.hbm, 92, rfl⟩
abbrev main_c_6 : Ref sig .tc := ⟨.hbm, 93, rfl⟩
abbrev main_v62 : Ref sig .tc := ⟨.hbm, 94, rfl⟩
abbrev main_v63 : Ref sig .tc := ⟨.hbm, 95, rfl⟩
abbrev main_c_7 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call2_cst : Ref sig .tc := ⟨.hbm, 115, rfl⟩
abbrev main_call2_v0 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_9 : Ref sig .tc := ⟨.hbm, 130, rfl⟩
abbrev main_v94 : Ref sig .tc := ⟨.hbm, 131, rfl⟩
abbrev main_cst_10 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_11 : Ref sig .tc := ⟨.hbm, 139, rfl⟩
abbrev main_v101 : Ref sig .tc := ⟨.hbm, 140, rfl⟩
abbrev main_cst_12 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_13 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call3_cst : Ref sig .tc := ⟨.hbm, 160, rfl⟩
abbrev main_call3_v0 : Ref sig .tc := ⟨.hbm, 161, rfl⟩
abbrev main_v119 : Ref sig .tc := ⟨.hbm, 162, rfl⟩
abbrev main_c_14 : Ref sig .tc := ⟨.hbm, 163, rfl⟩
abbrev main_v120 : Ref sig .tc := ⟨.hbm, 164, rfl⟩
abbrev main_v121 : Ref sig .tc := ⟨.hbm, 165, rfl⟩
abbrev main_c_15 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_16 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_call4_cst : Ref sig .tc := ⟨.hbm, 185, rfl⟩
abbrev main_call4_v0 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_17 : Ref sig .tc := ⟨.hbm, 200, rfl⟩
abbrev main_v152 : Ref sig .tc := ⟨.hbm, 201, rfl⟩
abbrev main_cst_18 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_19 : Ref sig .tc := ⟨.hbm, 209, rfl⟩
abbrev main_v159 : Ref sig .tc := ⟨.hbm, 210, rfl⟩
abbrev main_cst_20 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_21 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_call5_cst : Ref sig .tc := ⟨.hbm, 230, rfl⟩
abbrev main_call5_v0 : Ref sig .tc := ⟨.hbm, 231, rfl⟩
abbrev main_v177 : Ref sig .tc := ⟨.hbm, 232, rfl⟩
abbrev main_cst_22 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_23 : Ref sig .tc := ⟨.hbm, 237, rfl⟩
abbrev main_v181 : Ref sig .tc := ⟨.hbm, 238, rfl⟩
abbrev main_cst_24 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_25 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_26 : Ref sig .tc := ⟨.hbm, 253, rfl⟩
abbrev main_v194 : Ref sig .tc := ⟨.hbm, 254, rfl⟩
abbrev main_cst_27 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_cst_28 : Ref sig .tc := ⟨.hbm, 262, rfl⟩
abbrev main_v201 : Ref sig .tc := ⟨.hbm, 263, rfl⟩
abbrev main_cst_29 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_30 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_call6_cst : Ref sig .tc := ⟨.hbm, 283, rfl⟩
abbrev main_call6_v0 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_cst_31 : Ref sig .tc := ⟨.hbm, 290, rfl⟩
abbrev main_v224 : Ref sig .tc := ⟨.hbm, 291, rfl⟩
abbrev main_cst_32 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_cst_33 : Ref sig .tc := ⟨.hbm, 299, rfl⟩
abbrev main_v231 : Ref sig .tc := ⟨.hbm, 300, rfl⟩
abbrev main_cst_34 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_35 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_call7_cst : Ref sig .tc := ⟨.hbm, 320, rfl⟩
abbrev main_call7_v0 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  reducesTo_S512x64_S64_d0 : S512x64.ReducesTo [0] S64
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S32_d0 : S512x32.ReducesTo [0] S32
  bcast_S_S32 : S_.BroadcastsInDim S32 (![] : Fin 0 → Fin S32.rank)
  bcast_S_S512x32 : S_.BroadcastsInDim S512x32 (![] : Fin 0 → Fin S512x32.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x32_S512x32_1_0_0_1_n_n_wf : DotDims.WF S512x64 S64x32 S512x32 [1] [0] [0] [1] [] []
  dot_S512x32_S32x10_S512x10_1_0_0_1_n_n_wf : DotDims.WF S512x32 S32x10 S512x10 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x10_S512x10_1_0_0_1_n_n : DotDims S512x32 S32x10 S512x10 where
  lhsContracting := [1]
  rhsContracting := [0]
  lhsNonContracting := [0]
  rhsNonContracting := [1]
  lhsBatch := []
  rhsBatch := []
  wf := dot_S512x32_S32x10_S512x10_1_0_0_1_n_n_wf

class Facts : Prop extends Facts₀ where

variable [Facts]
-- ==== Proof.GinRun.lean ====
/-
  The kernel program's run, with its result buffer read.

  The program is six kernel launches among stretches of host operations. Running the segments one after
  the other from the launch memory, every buffer that outlives the launches ends at the last boundary's
  contents: the fold of the host stretches and of the launches' write-backs over the launch memory. The
  statement below keeps, of that final state, the result buffer (at the fold's value there) and the
  nineteen argument arrays (unchanged).
-/
import proofs.«112492_j4681514352775_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last boundary's contents and every argument array as launched. -/
theorem run_result : θ_run defs (onTc (τ := τ) (main (F := F))) ⟨m, fun _ => 0, ρ⟩ (fun r => ∀ c : Dev nD,
      r.2.mem ((c.tc : Thread nD τ).loc main_v196) = W17 m ρ c (Proc.devRef .tc main_v196)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v196 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c)⟩)

end Cert.KernelIdeal.GinRun

end
-- ==== Proof.GinWalk.lean ====
/-
  Which buffers each segment of the kernel program leaves alone.

  The program's memory is followed boundary by boundary: a host stretch rewrites exactly the buffers its
  operations produce and leaves every other buffer as it was; a launch rewrites exactly its output array (its
  input arrays end as entered, every buffer it is not handed is untouched). So a buffer read at a late boundary
  holds what it held at the boundary after its last write — for an argument array, its launch contents.
-/
import proofs.«112492_j4681514352775_1_alg».proof.Proof.Gen.KernelIdeal.Frame

set_option maxRecDepth 16384

noncomputable section

namespace Cert.KernelIdeal.GinWalk

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-! ## The host stretches -/

/-- The buffers the stretch `hostOps0` produces. -/
def wr_h0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23]

/-- Any other buffer is as before the stretch. -/
theorem keep_h0 (W : Valuation τ sig (Elt F)) (b : Ref sig .tc) (hb : b ∉ wr_h0) :
    StableHlo.after (hostOps0 (F := F)) W (Proc.devRef .tc b) = W (Proc.devRef .tc b) := by
  refine StableHlo.after_of_forall_not_mem (b := Proc.devRef .tc b) _ _ (List.forall_iff_forall_mem.mp ?_)
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps1` produces. -/
def wr_h1 : List (Ref sig .tc) := [main_cst_1, main_v25, main_v26, main_cst_2, main_v27, main_v28, main_v29, main_v30, main_v31, main_cst_3, main_v32, main_v33, main_cst_4, main_v34, main_v35, main_v36, main_v37, main_v38, main_v39, main_v40, main_v41]

/-- Any other buffer is as before the stretch. -/
theorem keep_h1 (W : Valuation τ sig (Elt F)) (b : Ref sig .tc) (hb : b ∉ wr_h1) :
    StableHlo.after (hostOps1 (F := F)) W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps2` produces. -/
def wr_h2 : List (Ref sig .tc) := [main_c_5, main_v43, main_v44, main_c_6, main_v45, main_v46, main_v47, main_v48, main_v49, main_cst_7, main_v50, main_v51, main_v52, main_v53, main_v54, main_v55, main_v56, main_v57, main_v58, main_v59, main_v60, main_v61, main_v62]

/-- Any other buffer is as before the stretch. -/
theorem keep_h2 (W : Valuation τ sig (Elt F)) (b : Ref sig .tc) (hb : b ∉ wr_h2) :
    StableHlo.after (hostOps2 (F := F)) W (Proc.devRef .tc b) = W (Proc.devRef .tc b) := by
  refine StableHlo.after_of_forall_not_mem (b := Proc.devRef .tc b) _ _ (List.forall_iff_forall_mem.mp ?_)
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps3` produces. -/
def wr_h3 : List (Ref sig .tc) := [main_cst_8, main_v64, main_v65, main_cst_9, main_v66, main_v67, main_v68, main_v69, main_v70, main_cst_10, main_v71, main_v72, main_cst_11, main_v73, main_v74, main_v75, main_v76, main_v77, main_v78, main_v79, main_v80]

/-- Any other buffer is as before the stretch. -/
theorem keep_h3 (W : Valuation τ sig (Elt F)) (b : Ref sig .tc) (hb : b ∉ wr_h3) :
    StableHlo.after (hostOps3 (F := F)) W (Proc.devRef .tc b) = W (Proc.devRef .tc b) := by
  refine StableHlo.after_of_forall_not_mem (b := Proc.devRef .tc b) _ _ (List.forall_iff_forall_mem.mp ?_)
  simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps4` produces. -/
def wr_h4 : List (Ref sig .tc) := [main_c_12, main_v82, main_v83, main_c_13, main_v84, main_v85, main_v86, main_v87, main_v88, main_cst_14, main_v89, main_v90, main_v91, main_v92, main_v93, main_v94, main_v95, main_v96, main_v97, main_v98, main_v99, main_v100, main_v101]

/-- Any other buffer is as before the stretch. -/
theorem keep_h4 (W : Valuation τ sig (Elt F)) (b : Ref sig .tc) (hb : b ∉ wr_h4) :
    StableHlo.after (hostOps4 (F := F)) W (Proc.devRef .tc b) = W (Proc.devRef .tc b) := by
  refine StableHlo.after_of_forall_not_mem (b := Proc.devRef .tc b) _ _ (List.forall_iff_forall_mem.mp ?_)
  simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps5` produces. -/
def wr_h5 : List (Ref sig .tc) := [main_cst_15, main_v103, main_v104, main_cst_16, main_v105, main_v106, main_v107, main_v108, main_v109, main_cst_17, main_v110, main_v111, main_cst_18, main_v112, main_v113, main_v114, main_v115, main_v116, main_v117, main_v118, main_v119]

/-- Any other buffer is as before the stretch. -/
theorem keep_h5 (W : Valuation τ sig (Elt F)) (b : Ref sig .tc) (hb : b ∉ wr_h5) :
    StableHlo.after (hostOps5 (F := F)) W (Proc.devRef .tc b) = W (Proc.devRef .tc b) := by
  refine StableHlo.after_of_forall_not_mem (b := Proc.devRef .tc b) _ _ (List.forall_iff_forall_mem.mp ?_)
  simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps6` produces. -/
def wr_h6 : List (Ref sig .tc) := [main_cst_19, main_v121, main_v122, main_v123, main_cst_20, main_v124, main_cst_21, main_v125, main_v126, main_v127, main_cst_22, main_v128, main_v129, main_v130, main_v131, main_v132, main_v133, main_v134, main_v135, main_v136, main_cst_23, main_v137, main_cst_24, main_v138, main_v139, main_v140, main_v141, main_v142, main_v143, main_cst_25, main_v144, main_cst_26, main_v145, main_v146, main_v147, main_v148, main_v149, main_v150, main_v151, main_v152, main_cst_27, main_v153, main_v154, main_v155, main_v156, main_v157, main_v158, main_v159, main_v160, main_v161]

/-- Any other buffer is as before the stretch. -/
theorem keep_h6 (W : Valuation τ sig (Elt F)) (b : Ref sig .tc) (hb : b ∉ wr_h6) :
    StableHlo.after (hostOps6 (F := F)) W (Proc.devRef .tc b) = W (Proc.devRef .tc b) := by
  refine StableHlo.after_of_forall_not_mem (b := Proc.devRef .tc b) _ _ (List.forall_iff_forall_mem.mp ?_)
  simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps6_1` produces. -/
def wr_h6_1 : List (Ref sig .tc) := [main_call0_cst, main_call0_v0, main_v162]

/-- Any other buffer is as before the stretch. -/
theorem keep_h6_1 (W : Valuation τ sig (Elt F)) (b : Ref sig .tc) (hb : b ∉ wr_h6_1) :
    StableHlo.after (hostOps6_1 (F := F)) W (Proc.devRef .tc b) = W (Proc.devRef .tc b) := by
  refine StableHlo.after_of_forall_not_mem (b := Proc.devRef .tc b) _ _ (List.forall_iff_forall_mem.mp ?_)
  simp only [hostOps6_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps6_2` produces. -/
def wr_h6_2 : List (Ref sig .tc) := [main_v163, main_v164, main_v165, main_v166, main_cst_28, main_v167, main_cst_29, main_v168, main_v169, main_v170, main_v171, main_v172, main_v173, main_cst_30, main_v174, main_cst_31, main_v175, main_v176, main_v177, main_v178, main_v179, main_v180, main_v181, main_v182, main_cst_32, main_v183, main_v184, main_v185, main_v186, main_v187, main_v188, main_v189, main_v190, main_v191]

/-- Any other buffer is as before the stretch. -/
theorem keep_h6_2 (W : Valuation τ sig (Elt F)) (b : Ref sig .tc) (hb : b ∉ wr_h6_2) :
    StableHlo.after (hostOps6_2 (F := F)) W (Proc.devRef .tc b) = W (Proc.devRef .tc b) := by
  refine StableHlo.after_of_forall_not_mem (b := Proc.devRef .tc b) _ _ (List.forall_iff_forall_mem.mp ?_)
  simp only [hostOps6_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps6_3` produces. -/
def wr_h6_3 : List (Ref sig .tc) := [main_call1_cst, main_call1_v0, main_v192]

/-- Any other buffer is as before the stretch. -/
theorem keep_h6_3 (W : Valuation τ sig (Elt F)) (b : Ref sig .tc) (hb : b ∉ wr_h6_3) :
    StableHlo.after (hostOps6_3 (F := F)) W (Proc.devRef .tc b) = W (Proc.devRef .tc b) := by
  refine StableHlo.after_of_forall_not_mem (b := Proc.devRef .tc b) _ _ (List.forall_iff_forall_mem.mp ?_)
  simp only [hostOps6_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-- The buffers the stretch `hostOps6_4` produces. -/
def wr_h6_4 : List (Ref sig .tc) := [main_v193, main_v194, main_v195, main_v196]

/-- Any other buffer is as before the stretch. -/
theorem keep_h6_4 (W : Valuation τ sig (Elt F)) (b : Ref sig .tc) (hb : b ∉ wr_h6_4) :
    StableHlo.after (hostOps6_4 (F := F)) W (Proc.devRef .tc b) = W (Proc.devRef .tc b) := by
  refine StableHlo.after_of_forall_not_mem (b := Proc.devRef .tc b) _ _ (List.forall_iff_forall_mem.mp ?_)
  simp only [hostOps6_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => hb (e ▸ (by decide)))

/-! ## The launches -/

variable (m : (ℓ : Loc nD τ sig) → Buf (Elt F) ℓ) (ρ : Dev nD → PrngReg)

/-- Launch 0 leaves every buffer other than its output array `main_v24` as it was entered. -/
theorem keep_r0 (c : Dev nD) (b : Ref sig .tc) (hb : b ≠ main_v24) :
    W2 m ρ c (Proc.devRef .tc b) = W1 m ρ c (Proc.devRef .tc b) := by
  by_cases h : ∀ w, Pipeline.arrRef spec0 w ≠ b
  · exact W2_of_ne m ρ c b h
  obtain ⟨w, hw⟩ := not_forall.mp h
  have hw' : Pipeline.arrRef spec0 w = b := not_not.mp hw
  subst hw'
  match w with
  | ⟨0, _⟩ => exact (W2_arr m ρ c 0).trans (((dat0 (V1 m ρ) c).arrAt_in 0 rfl _).trans (A_eq0 (V1 m ρ) c 0))
  | ⟨1, _⟩ => exact (W2_arr m ρ c 1).trans (((dat0 (V1 m ρ) c).arrAt_in 1 rfl _).trans (A_eq0 (V1 m ρ) c 1))
  | ⟨2, _⟩ => exact (W2_arr m ρ c 2).trans (((dat0 (V1 m ρ) c).arrAt_in 2 rfl _).trans (A_eq0 (V1 m ρ) c 2))
  | ⟨3, _⟩ => exact (W2_arr m ρ c 3).trans (((dat0 (V1 m ρ) c).arrAt_in 3 rfl _).trans (A_eq0 (V1 m ρ) c 3))
  | ⟨4, _⟩ => exact (W2_arr m ρ c 4).trans (((dat0 (V1 m ρ) c).arrAt_in 4 rfl _).trans (A_eq0 (V1 m ρ) c 4))
  | ⟨5, _⟩ => exact (W2_arr m ρ c 5).trans (((dat0 (V1 m ρ) c).arrAt_in 5 rfl _).trans (A_eq0 (V1 m ρ) c 5))
  | ⟨6, _⟩ => exact absurd rfl hb

/-- Launch 1 leaves every buffer other than its output array `main_v42` as it was entered. -/
theorem keep_r1 (c : Dev nD) (b : Ref sig .tc) (hb : b ≠ main_v42) :
    W4 m ρ c (Proc.devRef .tc b) = W3 m ρ c (Proc.devRef .tc b) := by
  by_cases h : ∀ w, Pipeline.arrRef spec1 w ≠ b
  · exact W4_of_ne m ρ c b h
  obtain ⟨w, hw⟩ := not_forall.mp h
  have hw' : Pipeline.arrRef spec1 w = b := not_not.mp hw
  subst hw'
  match w with
  | ⟨0, _⟩ => exact (W4_arr m ρ c 0).trans (((dat1 (V3 m ρ) c).arrAt_in 0 rfl _).trans (A_eq1 (V3 m ρ) c 0))
  | ⟨1, _⟩ => exact (W4_arr m ρ c 1).trans (((dat1 (V3 m ρ) c).arrAt_in 1 rfl _).trans (A_eq1 (V3 m ρ) c 1))
  | ⟨2, _⟩ => exact (W4_arr m ρ c 2).trans (((dat1 (V3 m ρ) c).arrAt_in 2 rfl _).trans (A_eq1 (V3 m ρ) c 2))
  | ⟨3, _⟩ => exact (W4_arr m ρ c 3).trans (((dat1 (V3 m ρ) c).arrAt_in 3 rfl _).trans (A_eq1 (V3 m ρ) c 3))
  | ⟨4, _⟩ => exact (W4_arr m ρ c 4).trans (((dat1 (V3 m ρ) c).arrAt_in 4 rfl _).trans (A_eq1 (V3 m ρ) c 4))
  | ⟨5, _⟩ => exact absurd rfl hb

/-- Launch 2 leaves every buffer other than its output array `main_v63` as it was entered. -/
theorem keep_r2 (c : Dev nD) (b : Ref sig .tc) (hb : b ≠ main_v63) :
    W6 m ρ c (Proc.devRef .tc b) = W5 m ρ c (Proc.devRef .tc b) := by
  by_cases h : ∀ w, Pipeline.arrRef spec2 w ≠ b
  · exact W6_of_ne m ρ c b h
  obtain ⟨w, hw⟩ := not_forall.mp h
  have hw' : Pipeline.arrRef spec2 w = b := not_not.mp hw
  subst hw'
  match w with
  | ⟨0, _⟩ => exact (W6_arr m ρ c 0).trans (((dat2 (V5 m ρ) c).arrAt_in 0 rfl _).trans (A_eq2 (V5 m ρ) c 0))
  | ⟨1, _⟩ => exact (W6_arr m ρ c 1).trans (((dat2 (V5 m ρ) c).arrAt_in 1 rfl _).trans (A_eq2 (V5 m ρ) c 1))
  | ⟨2, _⟩ => exact (W6_arr m ρ c 2).trans (((dat2 (V5 m ρ) c).arrAt_in 2 rfl _).trans (A_eq2 (V5 m ρ) c 2))
  | ⟨3, _⟩ => exact (W6_arr m ρ c 3).trans (((dat2 (V5 m ρ) c).arrAt_in 3 rfl _).trans (A_eq2 (V5 m ρ) c 3))
  | ⟨4, _⟩ => exact (W6_arr m ρ c 4).trans (((dat2 (V5 m ρ) c).arrAt_in 4 rfl _).trans (A_eq2 (V5 m ρ) c 4))
  | ⟨5, _⟩ => exact (W6_arr m ρ c 5).trans (((dat2 (V5 m ρ) c).arrAt_in 5 rfl _).trans (A_eq2 (V5 m ρ) c 5))
  | ⟨6, _⟩ => exact absurd rfl hb

/-- Launch 3 leaves every buffer other than its output array `main_v81` as it was entered. -/
theorem keep_r3 (c : Dev nD) (b : Ref sig .tc) (hb : b ≠ main_v81) :
    W8 m ρ c (Proc.devRef .tc b) = W7 m ρ c (Proc.devRef .tc b) := by
  by_cases h : ∀ w, Pipeline.arrRef spec3 w ≠ b
  · exact W8_of_ne m ρ c b h
  obtain ⟨w, hw⟩ := not_forall.mp h
  have hw' : Pipeline.arrRef spec3 w = b := not_not.mp hw
  subst hw'
  match w with
  | ⟨0, _⟩ => exact (W8_arr m ρ c 0).trans (((dat3 (V7 m ρ) c).arrAt_in 0 rfl _).trans (A_eq3 (V7 m ρ) c 0))
  | ⟨1, _⟩ => exact (W8_arr m ρ c 1).trans (((dat3 (V7 m ρ) c).arrAt_in 1 rfl _).trans (A_eq3 (V7 m ρ) c 1))
  | ⟨2, _⟩ => exact (W8_arr m ρ c 2).trans (((dat3 (V7 m ρ) c).arrAt_in 2 rfl _).trans (A_eq3 (V7 m ρ) c 2))
  | ⟨3, _⟩ => exact (W8_arr m ρ c 3).trans (((dat3 (V7 m ρ) c).arrAt_in 3 rfl _).trans (A_eq3 (V7 m ρ) c 3))
  | ⟨4, _⟩ => exact (W8_arr m ρ c 4).trans (((dat3 (V7 m ρ) c).arrAt_in 4 rfl _).trans (A_eq3 (V7 m ρ) c 4))
  | ⟨5, _⟩ => exact absurd rfl hb

/-- Launch 4 leaves every buffer other than its output array `main_v102` as it was entered. -/
theorem keep_r4 (c : Dev nD) (b : Ref sig .tc) (hb : b ≠ main_v102) :
    W10 m ρ c (Proc.devRef .tc b) = W9 m ρ c (Proc.devRef .tc b) := by
  by_cases h : ∀ w, Pipeline.arrRef spec4 w ≠ b
  · exact W10_of_ne m ρ c b h
  obtain ⟨w, hw⟩ := not_forall.mp h
  have hw' : Pipeline.arrRef spec4 w = b := not_not.mp hw
  subst hw'
  match w with
  | ⟨0, _⟩ => exact (W10_arr m ρ c 0).trans (((dat4 (V9 m ρ) c).arrAt_in 0 rfl _).trans (A_eq4 (V9 m ρ) c 0))
  | ⟨1, _⟩ => exact (W10_arr m ρ c 1).trans (((dat4 (V9 m ρ) c).arrAt_in 1 rfl _).trans (A_eq4 (V9 m ρ) c 1))
  | ⟨2, _⟩ => exact (W10_arr m ρ c 2).trans (((dat4 (V9 m ρ) c).arrAt_in 2 rfl _).trans (A_eq4 (V9 m ρ) c 2))
  | ⟨3, _⟩ => exact (W10_arr m ρ c 3).trans (((dat4 (V9 m ρ) c).arrAt_in 3 rfl _).trans (A_eq4 (V9 m ρ) c 3))
  | ⟨4, _⟩ => exact (W10_arr m ρ c 4).trans (((dat4 (V9 m ρ) c).arrAt_in 4 rfl _).trans (A_eq4 (V9 m ρ) c 4))
  | ⟨5, _⟩ => exact (W10_arr m ρ c 5).trans (((dat4 (V9 m ρ) c).arrAt_in 5 rfl _).trans (A_eq4 (V9 m ρ) c 5))
  | ⟨6, _⟩ => exact absurd rfl hb

/-- Launch 5 leaves every buffer other than its output array `main_v120` as it was entered. -/
theorem keep_r5 (c : Dev nD) (b : Ref sig .tc) (hb : b ≠ main_v120) :
    W12 m ρ c (Proc.devRef .tc b) = W11 m ρ c (Proc.devRef .tc b) := by
  by_cases h : ∀ w, Pipeline.arrRef spec5 w ≠ b
  · exact W12_of_ne m ρ c b h
  obtain ⟨w, hw⟩ := not_forall.mp h
  have hw' : Pipeline.arrRef spec5 w = b := not_not.mp hw
  subst hw'
  match w with
  | ⟨0, _⟩ => exact (W12_arr m ρ c 0).trans (((dat5 (V11 m ρ) c).arrAt_in 0 rfl _).trans (A_eq5 (V11 m ρ) c 0))
  | ⟨1, _⟩ => exact (W12_arr m ρ c 1).trans (((dat5 (V11 m ρ) c).arrAt_in 1 rfl _).trans (A_eq5 (V11 m ρ) c 1))
  | ⟨2, _⟩ => exact (W12_arr m ρ c 2).trans (((dat5 (V11 m ρ) c).arrAt_in 2 rfl _).trans (A_eq5 (V11 m ρ) c 2))
  | ⟨3, _⟩ => exact (W12_arr m ρ c 3).trans (((dat5 (V11 m ρ) c).arrAt_in 3 rfl _).trans (A_eq5 (V11 m ρ) c 3))
  | ⟨4, _⟩ => exact (W12_arr m ρ c 4).trans (((dat5 (V11 m ρ) c).arrAt_in 4 rfl _).trans (A_eq5 (V11 m ρ) c 4))
  | ⟨5, _⟩ => exact absurd rfl hb

/-! ## The same, boundary by boundary -/

theorem down1 (c : Dev nD) (b : Ref sig .tc) (hb : b ∉ wr_h0) :
    W1 m ρ c (Proc.devRef .tc b) = W0 m ρ c (Proc.devRef .tc b) := keep_h0 _ b hb

theorem down3 (c : Dev nD) (b : Ref sig .tc) (hb : b ∉ wr_h1) :
    W3 m ρ c (Proc.devRef .tc b) = W2 m ρ c (Proc.devRef .tc b) := keep_h1 _ b hb

theorem down5 (c : Dev nD) (b : Ref sig .tc) (hb : b ∉ wr_h2) :
    W5 m ρ c (Proc.devRef .tc b) = W4 m ρ c (Proc.devRef .tc b) := keep_h2 _ b hb

theorem down7 (c : Dev nD) (b : Ref sig .tc) (hb : b ∉ wr_h3) :
    W7 m ρ c (Proc.devRef .tc b) = W6 m ρ c (Proc.devRef .tc b) := keep_h3 _ b hb

theorem down9 (c : Dev nD) (b : Ref sig .tc) (hb : b ∉ wr_h4) :
    W9 m ρ c (Proc.devRef .tc b) = W8 m ρ c (Proc.devRef .tc b) := keep_h4 _ b hb

theorem down11 (c : Dev nD) (b : Ref sig .tc) (hb : b ∉ wr_h5) :
    W11 m ρ c (Proc.devRef .tc b) = W10 m ρ c (Proc.devRef .tc b) := keep_h5 _ b hb

theorem down13 (c : Dev nD) (b : Ref sig .tc) (hb : b ∉ wr_h6) :
    W13 m ρ c (Proc.devRef .tc b) = W12 m ρ c (Proc.devRef .tc b) := keep_h6 _ b hb

theorem down14 (c : Dev nD) (b : Ref sig .tc) (hb : b ∉ wr_h6_1) :
    W14 m ρ c (Proc.devRef .tc b) = W13 m ρ c (Proc.devRef .tc b) := keep_h6_1 _ b hb

theorem down15 (c : Dev nD) (b : Ref sig .tc) (hb : b ∉ wr_h6_2) :
    W15 m ρ c (Proc.devRef .tc b) = W14 m ρ c (Proc.devRef .tc b) := keep_h6_2 _ b hb

theorem down16 (c : Dev nD) (b : Ref sig .tc) (hb : b ∉ wr_h6_3) :
    W16 m ρ c (Proc.devRef .tc b) = W15 m ρ c (Proc.devRef .tc b) := keep_h6_3 _ b hb

theorem down17 (c : Dev nD) (b : Ref sig .tc) (hb : b ∉ wr_h6_4) :
    W17 m ρ c (Proc.devRef .tc b) = W16 m ρ c (Proc.devRef .tc b) := keep_h6_4 _ b hb

end Cert.KernelIdeal.GinWalk

end
-- ==== Proof.GinSpec.lean ====
/-
  One layer of the network as array functions, in the reference program's own host operations.

  A layer maps the node features h (100000 rows of 64) and the neighbourhood sums agg to
    z  = relu((h + agg) · W1 + b1) · W2 + b2                                      (mlpOf)
    h' = relu(g · (z − μ) · rsqrt(σ² + ε) + b)                                    (bnOf)
  where μ is the mean of each column of z over all 100000 rows (meanOf) and σ² the mean of the squared
  deviations from it (varOf). Each function is the reference's operations, in the reference's order,
  applied to arbitrary arrays.
-/
import proofs.«112492_j4681514352775_1_alg».proof.Proof.Gen.ReferenceIdeal
import Idealize.ShloMosaic.Lib.ValueIdx

noncomputable section

namespace Cert.ReferenceIdeal.GinSpec

open Cert.ReferenceIdeal Cert.ReferenceIdeal.Gen Idealize.ShloMosaic Idealize.ShloMosaic.TcCoe

variable {F : FTy → Type} [FloatOps F]

/-- Node features: 100000 rows of 64. -/
abbrev Nodes (F : FTy → Type) [FloatOps F] := (⟨S100000x64, .f32⟩ : BufTy).Contents (Elt F)
/-- A 64 by 64 weight matrix. -/
abbrev Mat (F : FTy → Type) [FloatOps F] := (⟨S64x64, .f32⟩ : BufTy).Contents (Elt F)
/-- A vector of 64 entries. -/
abbrev Row (F : FTy → Type) [FloatOps F] := (⟨S64, .f32⟩ : BufTy).Contents (Elt F)

/-- A vector of 64 entries as every row of a 100000 by 64 array. -/
def rows (v : Row F) : Nodes F :=
  broadcastInDim S100000x64 ![0, 1] bcast_S1x64_S100000x64_0_1 (broadcastInDim S1x64 ![1] bcast_S64_S1x64_1 v)

/-- The two-layer perceptron of a layer, applied to h + agg. -/
def mlpOf (h agg : Nodes F) (w1 : Mat F) (b1 : Row F) (w2 : Mat F) (b2 : Row F) : Nodes F :=
  addf (Host.dotGeneral dot_S100000x64_S64x64_S100000x64_1_0_0_1_n_n none
      (maximumf (addf (Host.dotGeneral dot_S100000x64_S64x64_S100000x64_1_0_0_1_n_n none (addf h agg) w1) (rows b1))
        (broadcastInDim S100000x64 ![] bcast_S_S100000x64 (constant S_ .f32 0x00000000#32))) w2) (rows b2)

/-- The column means: the column sums divided by 100000. -/
def meanOf (z : Nodes F) : Row F :=
  Host.divf (Host.reduceAdd z (constant S_ .f32 0x00000000#32) reducesTo_S100000x64_S64_d0 h_S_)
    (broadcastInDim S64 ![] bcast_S_S64 (constant S_ .f32 0x47C35000#32))

/-- Each entry minus its column's mean. -/
def centred (z : Nodes F) : Nodes F := subf z (rows (meanOf z))

/-- The column means of the squared deviations. -/
def varOf (z : Nodes F) : Row F :=
  Host.divf (Host.reduceAdd (mulf (centred z) (centred z)) (constant S_ .f32 0x00000000#32) reducesTo_S100000x64_S64_d0 h_S_)
    (broadcastInDim S64 ![] bcast_S_S64 (constant S_ .f32 0x47C35000#32))

/-- Batch normalisation over the rows, scaled by g, shifted by b, then relu. -/
def bnOf (z : Nodes F) (g b : Row F) : Nodes F :=
  maximumf (addf (mulf (mulf (rows g) (centred z))
      (rows (Host.rsqrt (addf (varOf z) (broadcastInDim S64 ![] bcast_S_S64 (constant S_ .f32 0x3727C5AC#32)))))) (rows b))
    (broadcastInDim S100000x64 ![] bcast_S_S100000x64 (constant S_ .f32 0x00000000#32))

end Cert.ReferenceIdeal.GinSpec

end
-- ==== Proof.GinRef.lean ====
/-
  The reference program's stages, layer by layer, are the layer functions.

  agg = the sum, over the edges into a node, of the source node's row (aggOf: gather the source rows, add
  each into its destination row of a zero array). The equations say that the reference's stages of layers
  1, 2 and 3 are aggOf, mlpOf and bnOf of the previous layer's stage and of the layer's slices of the
  parameters: each holds by unfolding the stages' definitions.
-/
import proofs.«112492_j4681514352775_1_alg».proof.Proof.RefRead
import proofs.«112492_j4681514352775_1_alg».proof.Proof.GinSpec

noncomputable section

namespace Cert.ReferenceIdeal.GinRef

open Cert.ReferenceIdeal Cert.ReferenceIdeal.Gen Cert.ReferenceIdeal.ReadP Cert.ReferenceIdeal.GinSpec Idealize.ShloMosaic Idealize.ShloMosaic.TcCoe

variable {F : FTy → Type} [FloatOps F]

/-- The edge list: row 0 the sources, row 1 the destinations. -/
abbrev Edges (F : FTy → Type) [FloatOps F] := (⟨S2x1200000, .i32⟩ : BufTy).Contents (Elt F)

/-- The neighbourhood sum: gather the source rows, add each into its destination row of a zero array. -/
def aggOf (h : Nodes F) (ei : Edges F) : Nodes F :=
  Host.scatterAdd scatter_S100000x64_S1200000x1_S1200000x64_1_0_0_1 (val_main_v11 (F := F)) (val_main_v12 (F := F) ei)
    (Host.gather gather_S100000x64_S1200000x1_S1200000x64_1_0_n_n_0_1_164 h (val_main_v9 (F := F) ei))

variable (x0 : Nodes F) (x1 : Edges F) (x3 x5 : (⟨S3x64x64, .f32⟩ : BufTy).Contents (Elt F))
  (x4 x6 x7 x8 : (⟨S3x64, .f32⟩ : BufTy).Contents (Elt F))

/-! ## Layer 1 -/

theorem agg1_eq : val_main_v13 (F := F) x0 x1 = aggOf x0 x1 := rfl

theorem z1_eq : val_main_v31 (F := F) x0 x1 x3 x4 x5 x6
    = mlpOf x0 (val_main_v13 (F := F) x0 x1) (val_main_v16 (F := F) x3) (val_main_v19 (F := F) x4) (val_main_v25 (F := F) x5) (val_main_v28 (F := F) x6) := rfl

theorem h1_eq : val_main_v61 (F := F) x0 x1 x3 x4 x5 x6 x7 x8
    = bnOf (val_main_v31 (F := F) x0 x1 x3 x4 x5 x6) (val_main_v33 (F := F) x7) (val_main_v35 (F := F) x8) := rfl

/-! ## Layer 2 -/

theorem agg2_eq : val_main_v71 (F := F) x0 x1 x3 x4 x5 x6 x7 x8 = aggOf (val_main_v61 (F := F) x0 x1 x3 x4 x5 x6 x7 x8) x1 := rfl

theorem z2_eq : val_main_v89 (F := F) x0 x1 x3 x4 x5 x6 x7 x8
    = mlpOf (val_main_v61 (F := F) x0 x1 x3 x4 x5 x6 x7 x8) (val_main_v71 (F := F) x0 x1 x3 x4 x5 x6 x7 x8)
        (val_main_v74 (F := F) x3) (val_main_v77 (F := F) x4) (val_main_v83 (F := F) x5) (val_main_v86 (F := F) x6) := rfl

theorem h2_eq : val_main_v119 (F := F) x0 x1 x3 x4 x5 x6 x7 x8
    = bnOf (val_main_v89 (F := F) x0 x1 x3 x4 x5 x6 x7 x8) (val_main_v91 (F := F) x7) (val_main_v93 (F := F) x8) := rfl

/-! ## Layer 3 -/

theorem agg3_eq : val_main_v129 (F := F) x0 x1 x3 x4 x5 x6 x7 x8 = aggOf (val_main_v119 (F := F) x0 x1 x3 x4 x5 x6 x7 x8) x1 := rfl

theorem z3_eq : val_main_v147 (F := F) x0 x1 x3 x4 x5 x6 x7 x8
    = mlpOf (val_main_v119 (F := F) x0 x1 x3 x4 x5 x6 x7 x8) (val_main_v129 (F := F) x0 x1 x3 x4 x5 x6 x7 x8)
        (val_main_v132 (F := F) x3) (val_main_v135 (F := F) x4) (val_main_v141 (F := F) x5) (val_main_v144 (F := F) x6) := rfl

theorem h3_eq : val_main_v177 (F := F) x0 x1 x3 x4 x5 x6 x7 x8
    = bnOf (val_main_v147 (F := F) x0 x1 x3 x4 x5 x6 x7 x8) (val_main_v149 (F := F) x7) (val_main_v151 (F := F) x8) := rfl

end Cert.ReferenceIdeal.GinRef

end
-- ==== Proof.GinKSpec.lean ====
/-
  The column statistics as the kernel program's host operations compute them between two launches:
  the column sums of z viewed as one row of 64, divided by 100000 (meanRow), and the same of the squared
  deviations of z from that row repeated over the 100000 rows (varRow). Both are 1 by 64 arrays.
-/
import proofs.«112492_j4681514352775_1_alg».proof.Proof.Gen.KernelIdeal
import Idealize.ShloMosaic.Lib.ValueIdx

noncomputable section

namespace Cert.KernelIdeal.GinKSpec

open Cert.KernelIdeal Cert.KernelIdeal.Gen Idealize.ShloMosaic Idealize.ShloMosaic.TcCoe

variable {F : FTy → Type} [FloatOps F]

/-- Node features: 100000 rows of 64. -/
abbrev KNodes (F : FTy → Type) [FloatOps F] := (⟨S100000x64, .f32⟩ : BufTy).Contents (Elt F)
/-- One row of 64 entries. -/
abbrev KRow (F : FTy → Type) [FloatOps F] := (⟨S1x64, .f32⟩ : BufTy).Contents (Elt F)

/-- The column means of z as one row: the column sums over 100000. -/
def meanRow (z : KNodes F) : KRow F :=
  Host.divf (broadcastInDim S1x64 ![1] bcast_S64_S1x64_1 (Host.reduceAdd z (constant S_ .f32 0x00000000#32) reducesTo_S100000x64_S64_d0 h_S_))
    (broadcastInDim S1x64 ![] bcast_S_S1x64 (constant S_ .f32 0x47C35000#32))

/-- Each entry of z minus its column's mean. -/
def centredK (z : KNodes F) : KNodes F :=
  subf z (broadcastInDim S100000x64 ![0, 1] bcast_S1x64_S100000x64_0_1 (meanRow z))

/-- The column means of the squared deviations, as one row. -/
def varRow (z : KNodes F) : KRow F :=
  Host.divf (broadcastInDim S1x64 ![1] bcast_S64_S1x64_1
      (Host.reduceAdd (mulf (centredK z) (centredK z)) (constant S_ .f32 0x00000000#32) reducesTo_S100000x64_S64_d0 h_S_))
    (broadcastInDim S1x64 ![] bcast_S_S1x64 (constant S_ .f32 0x47C35000#32))

end Cert.KernelIdeal.GinKSpec

end
-- ==== Proof.BnMath.lean ====
/-
  Batch normalisation followed by relu, entry by entry, at the exact values.

  Entry (r, o) of  relu(g · (z − μ) · rsqrt(σ² + ε) + b)  depends on the entry z(r, o) and on column o of
  the statistics and parameters only:
      bnAt z μ σ² g b = max (g · (z − μ) · rsqrt(σ² + ε) + b) 0.
  The reference holds μ, σ², g and b as vectors of 64 entries and repeats them over the rows; a kernel launch
  is handed them as 1 by 64 arrays and works tile by tile. The statistics the kernel program computes between
  launches (meanRow, varRow) are the reference's (meanOf, varOf), entry for entry.
-/
import proofs.«112492_j4681514352775_1_alg».proof.Proof.GinSpec
import proofs.«112492_j4681514352775_1_alg».proof.Proof.GinKSpec
import proofs.«112492_j4681514352775_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.GinBn

open Idealize.ShloMosaic Idealize.ShloMosaic.ValueIdx Idealize.ShloMosaic.TcCoe

/-- One output entry of the normalisation, from the entry, its column's mean and variance, scale and shift. -/
def bnAt (z μ v g b : EReal) : EReal :=
  max (g * (z - μ) * Ideal.rsqrt (v + Ideal.ofBits .f32 0x3727C5AC#32) + b) (Ideal.ofBits .f32 0x00000000#32)

/-- A vector of 64 entries viewed as one row of 64 reads, in column o, its entry o. -/
theorem rowOf_apply {α : Type} (h : (⟨1, ![64]⟩ : Shape).BroadcastsInDim ⟨2, ![1, 64]⟩ ![1])
    (v : (⟨1, ![64]⟩ : Shape).Idx → α) (o : Fin 64) :
    broadcastInDim ⟨2, ![1, 64]⟩ ![1] h v (ix2 0 o) = v (ix1 o) :=
  broadcastInDim_apply _ h v (ix2 0 o) (ix1 o) (fun a => match a with
    | ⟨0, _⟩ => by show o.val = if (64 : Nat) = 1 then 0 else o.val; rw [if_neg (by decide)])

/-- One row of 64 repeated over 100000 rows reads, at (r, o), the row's entry o. -/
theorem repeat_apply {α : Type} (h : (⟨2, ![1, 64]⟩ : Shape).BroadcastsInDim ⟨2, ![100000, 64]⟩ ![0, 1])
    (w : (⟨2, ![1, 64]⟩ : Shape).Idx → α) (r : Fin 100000) (o : Fin 64) :
    broadcastInDim ⟨2, ![100000, 64]⟩ ![0, 1] h w (ix2 r o) = w (ix2 0 o) :=
  broadcastInDim_apply _ h w (ix2 r o) (ix2 0 o) (fun a => match a with
    | ⟨0, _⟩ => by show 0 = if (1 : Nat) = 1 then 0 else r.val; rw [if_pos rfl]
    | ⟨1, _⟩ => by show o.val = if (64 : Nat) = 1 then 0 else o.val; rw [if_neg (by decide)])

/-- A vector of 64 entries repeated over the 100000 rows reads, at (r, o), its entry o. -/
theorem rows_apply (v : Cert.ReferenceIdeal.GinSpec.Row Ideal) (r : Fin 100000) (o : Fin 64) :
    Cert.ReferenceIdeal.GinSpec.rows (F := Ideal) v (ix2 r o) = v (ix1 o) :=
  (repeat_apply _ _ r o).trans (rowOf_apply _ v o)

/-- The reference's normalisation over all rows, at entry (r, o). -/
theorem bnOf_apply (Z : Cert.ReferenceIdeal.GinSpec.Nodes Ideal) (g b : Cert.ReferenceIdeal.GinSpec.Row Ideal)
    (r : Fin 100000) (o : Fin 64) :
    Cert.ReferenceIdeal.GinSpec.bnOf (F := Ideal) Z g b (ix2 r o)
      = bnAt (Z (ix2 r o)) (Cert.ReferenceIdeal.GinSpec.meanOf (F := Ideal) Z (ix1 o))
          (Cert.ReferenceIdeal.GinSpec.varOf (F := Ideal) Z (ix1 o)) (g (ix1 o)) (b (ix1 o)) := by
  unfold Cert.ReferenceIdeal.GinSpec.bnOf Cert.ReferenceIdeal.GinSpec.centred
  generalize Cert.ReferenceIdeal.GinSpec.meanOf (F := Ideal) Z = μ
  generalize Cert.ReferenceIdeal.GinSpec.varOf (F := Ideal) Z = v
  have eg := rows_apply g r o
  have em := rows_apply μ r o
  have eb := rows_apply b r o
  have ev : Cert.ReferenceIdeal.GinSpec.rows (F := Ideal)
      (Host.rsqrt (addf v (broadcastInDim Cert.ReferenceIdeal.S64 ![] Cert.ReferenceIdeal.Gen.bcast_S_S64
        (constant (F := Ideal) Cert.ReferenceIdeal.S_ .f32 0x3727C5AC#32)))) (ix2 r o)
      = Ideal.rsqrt ((v (ix1 o) : EReal) + Ideal.ofBits .f32 0x3727C5AC#32) := rows_apply _ r o
  unfold bnAt
  rw [← eg, ← em, ← eb, ← ev]
  rfl

/-- A column statistic — the column sums of an array over 100000, as the kernel program computes it (the sums
    viewed as one row, then divided) and as the reference does (divided as a vector): the same sum and the same
    divisor, column by column. -/
theorem colStat_apply (X : Cert.KernelIdeal.GinKSpec.KNodes Ideal) (o : Fin 64) :
    Host.divf (broadcastInDim Cert.KernelIdeal.S1x64 ![1] Cert.KernelIdeal.Gen.bcast_S64_S1x64_1
        (Host.reduceAdd X (constant (F := Ideal) Cert.KernelIdeal.S_ .f32 0x00000000#32)
          Cert.KernelIdeal.Gen.reducesTo_S100000x64_S64_d0 Cert.KernelIdeal.Gen.h_S_))
      (broadcastInDim Cert.KernelIdeal.S1x64 ![] Cert.KernelIdeal.Gen.bcast_S_S1x64
        (constant (F := Ideal) Cert.KernelIdeal.S_ .f32 0x47C35000#32)) (ix2 0 o)
    = Host.divf (Host.reduceAdd X (constant (F := Ideal) Cert.ReferenceIdeal.S_ .f32 0x00000000#32)
          Cert.ReferenceIdeal.Gen.reducesTo_S100000x64_S64_d0 Cert.ReferenceIdeal.Gen.h_S_)
      (broadcastInDim Cert.ReferenceIdeal.S64 ![] Cert.ReferenceIdeal.Gen.bcast_S_S64
        (constant (F := Ideal) Cert.ReferenceIdeal.S_ .f32 0x47C35000#32)) (ix1 o) := by
  generalize Host.reduceAdd X (constant (F := Ideal) Cert.KernelIdeal.S_ .f32 0x00000000#32)
          Cert.KernelIdeal.Gen.reducesTo_S100000x64_S64_d0 Cert.KernelIdeal.Gen.h_S_ = R
  exact congrArg (fun x : EReal => Ideal.div x (Ideal.ofBits .f32 0x47C35000#32)) (rowOf_apply _ R o)

/-- The mean row of the kernel program is the reference's mean vector, column by column. -/
theorem meanRow_apply (Z : Cert.KernelIdeal.GinKSpec.KNodes Ideal) (o : Fin 64) :
    Cert.KernelIdeal.GinKSpec.meanRow (F := Ideal) Z (ix2 0 o) = Cert.ReferenceIdeal.GinSpec.meanOf (F := Ideal) Z (ix1 o) :=
  colStat_apply Z o

/-- The deviations from the column means are the same array in both programs. -/
theorem centredK_eq (Z : Cert.KernelIdeal.GinKSpec.KNodes Ideal) :
    Cert.KernelIdeal.GinKSpec.centredK (F := Ideal) Z = Cert.ReferenceIdeal.GinSpec.centred (F := Ideal) Z := by
  funext i
  obtain ⟨r, o, rfl⟩ : ∃ (r : Fin 100000) (o : Fin 64), i = ix2 r o := ⟨i 0, i 1, eq_ix2 i⟩
  have e1 : broadcastInDim Cert.KernelIdeal.S100000x64 ![0, 1] Cert.KernelIdeal.Gen.bcast_S1x64_S100000x64_0_1
      (Cert.KernelIdeal.GinKSpec.meanRow (F := Ideal) Z) (ix2 r o)
      = Cert.ReferenceIdeal.GinSpec.rows (F := Ideal) (Cert.ReferenceIdeal.GinSpec.meanOf (F := Ideal) Z) (ix2 r o) :=
    (repeat_apply _ _ r o).trans ((meanRow_apply Z o).trans (rows_apply _ r o).symm)
  exact congrArg (fun x : EReal => (Z (ix2 r o) : EReal) - x) e1

/-- The variance row of the kernel program is the reference's variance vector, column by column. -/
theorem varRow_apply (Z : Cert.KernelIdeal.GinKSpec.KNodes Ideal) (o : Fin 64) :
    Cert.KernelIdeal.GinKSpec.varRow (F := Ideal) Z (ix2 0 o) = Cert.ReferenceIdeal.GinSpec.varOf (F := Ideal) Z (ix1 o) := by
  unfold Cert.KernelIdeal.GinKSpec.varRow Cert.ReferenceIdeal.GinSpec.varOf
  rw [centredK_eq]
  exact colStat_apply _ o

/-- One row of 64 repeated over a tile of 2000 rows reads, at (p, o), the row's entry o. -/
theorem stretch_apply {α : Type} (h : (⟨2, ![1, 64]⟩ : Shape).Broadcasts ⟨2, ![2000, 64]⟩)
    (w : (⟨2, ![1, 64]⟩ : Shape).Idx → α) (p : Fin 2000) (o : Fin 64) :
    broadcastTo ⟨2, ![2000, 64]⟩ w h (ix2 p o) = w (ix2 0 o) :=
  broadcastTo_apply w h (ix2 p o) (ix2 0 o) (fun a => match a with
    | ⟨0, _⟩ => by show 0 = if (1 : Nat) = 1 then 0 else p.val; rw [if_pos rfl]
    | ⟨1, _⟩ => by show o.val = if (64 : Nat) = 1 then 0 else o.val; rw [if_neg (by decide)])

open Cert.KernelIdeal in
/-- A normalisation launch's body — the rows of statistics and parameters repeated over the tile, the pointwise
    operations in the body's order — at entry (p, o) of the tile. -/
theorem tile_apply (var g : Vec Ideal S1x64 .f32) (z : Vec Ideal S2000x64 .f32) (mean b : Vec Ideal S1x64 .f32)
    (p : Fin 2000) (o : Fin 64) :
    maximumf (addf (mulf (mulf (broadcastTo S2000x64 g Gen.broadcasts_S1x64_S2000x64)
            (subf z (broadcastTo S2000x64 mean Gen.broadcasts_S1x64_S2000x64)))
          (broadcastTo S2000x64 (rsqrt (addf var (broadcast S1x64 (Scalar.ofBits (F := Ideal) .f32 0x3727C5AC#32))))
            Gen.broadcasts_S1x64_S2000x64))
        (broadcastTo S2000x64 b Gen.broadcasts_S1x64_S2000x64))
      (broadcast S2000x64 (Scalar.ofBits (F := Ideal) .f32 0x00000000#32)) (ix2 p o)
      = bnAt (z (ix2 p o)) (mean (ix2 0 o)) (var (ix2 0 o)) (g (ix2 0 o)) (b (ix2 0 o)) := by
  have eg := stretch_apply Gen.broadcasts_S1x64_S2000x64 g p o
  have em := stretch_apply Gen.broadcasts_S1x64_S2000x64 mean p o
  have eb := stretch_apply Gen.broadcasts_S1x64_S2000x64 b p o
  have ev : broadcastTo S2000x64 (rsqrt (addf var (broadcast S1x64 (Scalar.ofBits (F := Ideal) .f32 0x3727C5AC#32))))
      Gen.broadcasts_S1x64_S2000x64 (ix2 p o)
      = Ideal.rsqrt ((var (ix2 0 o) : EReal) + Ideal.ofBits .f32 0x3727C5AC#32) :=
    stretch_apply Gen.broadcasts_S1x64_S2000x64 _ p o
  unfold bnAt
  rw [← eg, ← em, ← eb, ← ev]
  rfl

open Cert.KernelIdeal in
/-- The second launch's body on a tile of 2000 rows, at entry (p, o) of the tile. Its loads, in the body's order:
    the variance row, the scale row, the tile of z, the mean row, the shift row. -/
theorem k1_pay1_apply (var g : Vec Ideal S1x64 .f32) (z : Vec Ideal S2000x64 .f32) (mean b : Vec Ideal S1x64 .f32)
    (p : Fin 2000) (o : Fin 64) :
    Cert.KernelIdeal.Gen.k1_pay1 (F := Ideal) var g z mean b (ix2 p o)
      = bnAt (z (ix2 p o)) (mean (ix2 0 o)) (var (ix2 0 o)) (g (ix2 0 o)) (b (ix2 0 o)) := by
  unfold Cert.KernelIdeal.Gen.k1_pay1
  simp only [shapeCast_self]
  exact tile_apply var g z mean b p o

open Cert.KernelIdeal in
/-- The fourth launch's body (layer 2), the same function. -/
theorem k3_pay1_apply (var g : Vec Ideal S1x64 .f32) (z : Vec Ideal S2000x64 .f32) (mean b : Vec Ideal S1x64 .f32)
    (p : Fin 2000) (o : Fin 64) :
    Cert.KernelIdeal.Gen.k3_pay1 (F := Ideal) var g z mean b (ix2 p o)
      = bnAt (z (ix2 p o)) (mean (ix2 0 o)) (var (ix2 0 o)) (g (ix2 0 o)) (b (ix2 0 o)) := by
  unfold Cert.KernelIdeal.Gen.k3_pay1
  simp only [shapeCast_self]
  exact tile_apply var g z mean b p o

open Cert.KernelIdeal in
/-- The sixth launch's body (layer 3), the same function. -/
theorem k5_pay1_apply (var g : Vec Ideal S1x64 .f32) (z : Vec Ideal S2000x64 .f32) (mean b : Vec Ideal S1x64 .f32)
    (p : Fin 2000) (o : Fin 64) :
    Cert.KernelIdeal.Gen.k5_pay1 (F := Ideal) var g z mean b (ix2 p o)
      = bnAt (z (ix2 p o)) (mean (ix2 0 o)) (var (ix2 0 o)) (g (ix2 0 o)) (b (ix2 0 o)) := by
  unfold Cert.KernelIdeal.Gen.k5_pay1
  simp only [shapeCast_self]
  exact tile_apply var g z mean b p o

end Cert.GinBn

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.MlpMath.lean ====
/-
  The perceptron of a layer, entry by entry, at the exact values.

  Entry (r, o) of  relu((h + agg) · W1 + b1) · W2 + b2  depends on row r of h and of agg only:
      mlpAt = ∑ k, max ((∑ l, (h l + a l) · W1 l k) + b1 k) 0 · W2 k o  +  b2 o.
  The reference computes it with two matrix products over all 100000 rows; a kernel launch computes it tile
  by tile, 2000 rows at a time, with the biases held as 1 by 64 arrays. Both are mlpAt of the row.
-/
import proofs.«112492_j4681514352775_1_alg».proof.Proof.GinSpec
import proofs.«112492_j4681514352775_1_alg».proof.Proof.Gen.KernelIdeal.Skeleton
import proofs.«112492_j4681514352775_1_alg».proof.Proof.LibPlainDot
import Idealize.ShloMosaic.Lib.Pipeline.Value
import Idealize.ShloMosaic.Lib.ValueLayout
import Idealize.ShloMosaic.PureOps.Ideal.Laws

noncomputable section

open scoped BigOperators

namespace Cert.GinMlp

open Idealize.ShloMosaic Idealize.ShloMosaic.ValueIdx Idealize.ShloMosaic.TcCoe

/-- One output entry of the perceptron, from one row of h, the same row of agg, and the parameters. -/
def mlpAt (h a : Fin 64 → EReal) (w1 : Fin 64 → Fin 64 → EReal) (b1 : Fin 64 → EReal)
    (w2 : Fin 64 → Fin 64 → EReal) (b2 : Fin 64 → EReal) (o : Fin 64) : EReal :=
  (∑ k : Fin 64, max ((∑ l : Fin 64, (h l + a l) * w1 l k) + b1 k) (Ideal.ofBits .f32 0x00000000#32) * w2 k o) + b2 o

/-- A vector of 64 entries laid out as every row of a 100000 by 64 array: entry (r, o) is entry o of the vector. -/
theorem rows_apply (v : Cert.ReferenceIdeal.GinSpec.Row Ideal) (r : Fin 100000) (o : Fin 64) :
    Cert.ReferenceIdeal.GinSpec.rows (F := Ideal) v (ix2 r o) = v (ix1 o) := by
  unfold Cert.ReferenceIdeal.GinSpec.rows
  refine (broadcastInDim_apply _ Cert.ReferenceIdeal.Gen.bcast_S1x64_S100000x64_0_1 _ (ix2 r o) (ix2 0 o) (fun a => match a with
    | ⟨0, _⟩ => by show 0 = if (1 : Nat) = 1 then 0 else r.val; rw [if_pos rfl]
    | ⟨1, _⟩ => by show o.val = if (64 : Nat) = 1 then 0 else o.val; rw [if_neg (by decide)])).trans ?_
  exact broadcastInDim_apply _ Cert.ReferenceIdeal.Gen.bcast_S64_S1x64_1 v (ix2 0 o) (ix1 o) (fun a => match a with
    | ⟨0, _⟩ => by show o.val = if (64 : Nat) = 1 then 0 else o.val; rw [if_neg (by decide)])

/-- The reference's perceptron over all rows, at entry (r, o). -/
theorem mlpOf_apply (H A : Cert.ReferenceIdeal.GinSpec.Nodes Ideal) (W1 : Cert.ReferenceIdeal.GinSpec.Mat Ideal)
    (b1 : Cert.ReferenceIdeal.GinSpec.Row Ideal) (W2 : Cert.ReferenceIdeal.GinSpec.Mat Ideal)
    (b2 : Cert.ReferenceIdeal.GinSpec.Row Ideal) (r : Fin 100000) (o : Fin 64) :
    Cert.ReferenceIdeal.GinSpec.mlpOf (F := Ideal) H A W1 b1 W2 b2 (ix2 r o)
      = mlpAt (fun l => H (ix2 r l)) (fun l => A (ix2 r l)) (fun l k => W1 (ix2 l k)) (fun k => b1 (ix1 k))
          (fun l k => W2 (ix2 l k)) (fun k => b2 (ix1 k)) o := by
  unfold Cert.ReferenceIdeal.GinSpec.mlpOf mlpAt
  show Host.dotGeneral (F := Ideal) (DotDims.plain 100000 64 64) none _ W2 (ix2 r o) + Cert.ReferenceIdeal.GinSpec.rows (F := Ideal) b2 (ix2 r o) = _
  rw [Cert.LibPlainDot.dotGeneral_apply, rows_apply]
  refine congrArg (· + b2 (ix1 o)) (Finset.sum_congr rfl fun k _ => ?_)
  refine congrArg (· * W2 (ix2 k o)) ?_
  show max (Host.dotGeneral (F := Ideal) (DotDims.plain 100000 64 64) none (addf H A) W1 (ix2 r k)
      + Cert.ReferenceIdeal.GinSpec.rows (F := Ideal) b1 (ix2 r k)) (Ideal.ofBits .f32 0x00000000#32) = _
  rw [Cert.LibPlainDot.dotGeneral_apply, rows_apply]
  rfl

open Cert.KernelIdeal Cert.KernelIdeal.Gen in
/-- A tile's matrix product into the zero accumulator, at entry (p, o), whatever the operands' formats: at the exact
    values a format is only a label. -/
theorem mm_apply {φ₁ φ₂ : FTy} (L : FVec Ideal S2000x64 φ₁) (R : FVec Ideal S64x64 φ₂) (p : Fin 2000) (o : Fin 64) :
    matmul dot_S2000x64_S64x64_S2000x64_1_0_0_1_n_n none L R (constant S2000x64 .f32 0x00000000#32) (ix2 p o)
      = ∑ k : Fin 64, L (ix2 p k) * R (ix2 k o) :=
  Cert.LibPlainDot.matmul_zero_apply (n := 2000) (a := 64) (b := 64) none L R p o

open Cert.KernelIdeal Cert.KernelIdeal.Gen in
/-- A 1 by 64 array broadcast over the 2000 rows of a tile: entry (p, o) is entry (0, o) of the array. -/
theorem bias_apply (b : FVec Ideal S1x64 .f32) (p : Fin 2000) (o : Fin 64) :
    broadcastTo S2000x64 b broadcasts_S1x64_S2000x64 (ix2 p o) = b (ix2 0 o) :=
  broadcastTo_apply b broadcasts_S1x64_S2000x64 (ix2 p o) (ix2 0 o) (fun a => match a with
    | ⟨0, _⟩ => by show 0 = if (1 : Nat) = 1 then 0 else p.val; rw [if_pos rfl]
    | ⟨1, _⟩ => by show o.val = if (64 : Nat) = 1 then 0 else o.val; rw [if_neg (by decide)])

open Cert.KernelIdeal Cert.KernelIdeal.Gen in
/-- The launch body with the identity shape casts removed, at entry (p, o) of the tile. -/
theorem tile_apply (x0 x1 : Vec Ideal S2000x64 .f32) (w1 : Vec Ideal S64x64 .f32) (b1 : Vec Ideal S1x64 .f32)
    (w2 : Vec Ideal S64x64 .f32) (b2 : Vec Ideal S1x64 .f32) (p : Fin 2000) (o : Fin 64) :
    addf (F := Ideal) (matmul dot_S2000x64_S64x64_S2000x64_1_0_0_1_n_n none
        (truncf .bf16 (maximumf (addf (matmul dot_S2000x64_S64x64_S2000x64_1_0_0_1_n_n none
              (truncf .bf16 (addf x0 x1) bitsLt_bf16_f32) (truncf .bf16 w1 bitsLt_bf16_f32)
              (constant S2000x64 .f32 0x00000000#32))
            (broadcastTo S2000x64 b1 broadcasts_S1x64_S2000x64))
          (broadcast S2000x64 (Scalar.ofBits .f32 0x00000000#32))) bitsLt_bf16_f32)
        (truncf .bf16 w2 bitsLt_bf16_f32) (constant S2000x64 .f32 0x00000000#32))
      (broadcastTo S2000x64 b2 broadcasts_S1x64_S2000x64) (ix2 p o)
      = mlpAt (fun l => x0 (ix2 p l)) (fun l => x1 (ix2 p l)) (fun l k => w1 (ix2 l k)) (fun k => b1 (ix2 0 k))
          (fun l k => w2 (ix2 l k)) (fun k => b2 (ix2 0 k)) o := by
  unfold mlpAt
  rw [addf_apply, mm_apply, bias_apply]
  refine congrArg (· + b2 (ix2 0 o)) (Finset.sum_congr rfl fun k _ => ?_)
  refine congrArg (· * w2 (ix2 k o)) ?_
  rw [truncf_apply, maximumf_apply, addf_apply, mm_apply, bias_apply]
  rfl

open Cert.KernelIdeal in
/-- The first launch's body on a tile of 2000 rows, at entry (p, o) of the tile. -/
theorem k0_pay1_apply (x0 x1 : Vec Ideal S2000x64 .f32) (w1 : Vec Ideal S64x64 .f32) (b1 : Vec Ideal S1x64 .f32)
    (w2 : Vec Ideal S64x64 .f32) (b2 : Vec Ideal S1x64 .f32) (p : Fin 2000) (o : Fin 64) :
    Cert.KernelIdeal.Gen.k0_pay1 (F := Ideal) x0 x1 w1 b1 w2 b2 (ix2 p o)
      = mlpAt (fun l => x0 (ix2 p l)) (fun l => x1 (ix2 p l)) (fun l k => w1 (ix2 l k)) (fun k => b1 (ix2 0 k))
          (fun l k => w2 (ix2 l k)) (fun k => b2 (ix2 0 k)) o := by
  unfold Cert.KernelIdeal.Gen.k0_pay1
  simp only [shapeCast_self]
  exact tile_apply x0 x1 w1 b1 w2 b2 p o

open Cert.KernelIdeal in
/-- The third launch's body (layer 2), the same function. -/
theorem k2_pay1_apply (x0 x1 : Vec Ideal S2000x64 .f32) (w1 : Vec Ideal S64x64 .f32) (b1 : Vec Ideal S1x64 .f32)
    (w2 : Vec Ideal S64x64 .f32) (b2 : Vec Ideal S1x64 .f32) (p : Fin 2000) (o : Fin 64) :
    Cert.KernelIdeal.Gen.k2_pay1 (F := Ideal) x0 x1 w1 b1 w2 b2 (ix2 p o)
      = mlpAt (fun l => x0 (ix2 p l)) (fun l => x1 (ix2 p l)) (fun l k => w1 (ix2 l k)) (fun k => b1 (ix2 0 k))
          (fun l k => w2 (ix2 l k)) (fun k => b2 (ix2 0 k)) o := by
  unfold Cert.KernelIdeal.Gen.k2_pay1
  simp only [shapeCast_self]
  exact tile_apply x0 x1 w1 b1 w2 b2 p o

open Cert.KernelIdeal in
/-- The fifth launch's body (layer 3), the same function. -/
theorem k4_pay1_apply (x0 x1 : Vec Ideal S2000x64 .f32) (w1 : Vec Ideal S64x64 .f32) (b1 : Vec Ideal S1x64 .f32)
    (w2 : Vec Ideal S64x64 .f32) (b2 : Vec Ideal S1x64 .f32) (p : Fin 2000) (o : Fin 64) :
    Cert.KernelIdeal.Gen.k4_pay1 (F := Ideal) x0 x1 w1 b1 w2 b2 (ix2 p o)
      = mlpAt (fun l => x0 (ix2 p l)) (fun l => x1 (ix2 p l)) (fun l k => w1 (ix2 l k)) (fun k => b1 (ix2 0 k))
          (fun l k => w2 (ix2 l k)) (fun k => b2 (ix2 0 k)) o := by
  unfold Cert.KernelIdeal.Gen.k4_pay1
  simp only [shapeCast_self]
  exact tile_apply x0 x1 w1 b1 w2 b2 p o

end Cert.GinMlp

end
-- ==== Proof.RegionMlp0.lean ====
/-
  The first perceptron launch: what its output array holds when the launch is over.

  The launch walks 50 grid points. At point t it is handed rows 2000·t … 2000·t + 1999 of h and of agg (its two
  moving windows), the whole of W1, W2 and of the two bias rows (its four resident windows), and writes rows
  2000·t … 2000·t + 1999 of the output. The body's result at entry (p, o) of the tile is the perceptron's value
  on row 2000·t + p, which is entry (2000·t + p, o) of the reference's perceptron over the whole arrays; the 50
  tiles cover every row, so the output array is the reference's perceptron of the launch's input arrays.
-/
import proofs.«112492_j4681514352775_1_alg».proof.Proof.Gen.KernelIdeal.Frame
import proofs.«112492_j4681514352775_1_alg».proof.Proof.GinSpec
import proofs.«112492_j4681514352775_1_alg».proof.Proof.MlpMath
import Idealize.ShloMosaic.Lib.Pipeline.Value

set_option maxRecDepth 16384

noncomputable section

namespace Cert.KernelIdeal.GinRegion0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.GinSpec (mlpOf Nodes Mat Row)
open Cert.GinMlp (mlpAt mlpOf_apply k0_pay1_apply)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the two moving inputs and the output sit at block row t, the four resident
    inputs at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row 2000·t + p of the whole array, for a point t and a row p of the tile. -/
def rowOf (t : Fin cfg0.N) (p : Fin 2000) : Fin 100000 :=
  ⟨t.val * 2000 + p.val, by have ht : t.val < 50 := t.isLt.trans_eq N_0; have hp := p.isLt; omega⟩

/-- Where entry (p, o) of the output's tile at point t lies in the output array. -/
theorem emb_out (t : Fin cfg0.N) (p : Fin 2000) (o : Fin 64) :
    ((cfg0.win 6).blk t).view.emb (ix2 p o) = ix2 (rowOf t p) o := by
  obtain ⟨-, -, -, -, -, -, -, -, -, -, -, -, e0, e1⟩ := index_facts t
  funext a; apply Fin.ext
  match a with
  | ⟨0, _⟩ => show win0_6.index t (0 : Fin 2) * 2000 + 1 * p.val = t.val * 2000 + p.val; omega
  | ⟨1, _⟩ => show win0_6.index t (1 : Fin 2) * 64 + 1 * o.val = o.val; omega

/-- A moving input's tile at point t is the same rows of its array. -/
theorem blk0 (c : Dev nD) (t : Fin cfg0.N) (p : Fin 2000) (l : Fin 64) :
    iblk0 V c 0 t (ix2 p l) = V c main_arg0 (ix2 (rowOf t p) l) := by
  obtain ⟨e0, e1, -⟩ := index_facts t
  show V c main_arg0 (((cfg0.win 0).blk t).view.emb (ix2 p l)) = V c main_arg0 (ix2 (rowOf t p) l)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 64 + 1 * l.val = l.val; omega

theorem blk1 (c : Dev nD) (t : Fin cfg0.N) (p : Fin 2000) (l : Fin 64) :
    iblk0 V c 1 t (ix2 p l) = V c main_v13 (ix2 (rowOf t p) l) := by
  obtain ⟨-, -, e0, e1, -⟩ := index_facts t
  show V c main_v13 (((cfg0.win 1).blk t).view.emb (ix2 p l)) = V c main_v13 (ix2 (rowOf t p) l)
  refine congrArg (V c main_v13) (funext fun a => Fin.ext ?_)
  match a with
  | ⟨0, _⟩ => show win0_1.index t (0 : Fin 2) * 2000 + 1 * p.val = t.val * 2000 + p.val; omega
  | ⟨1, _⟩ => show win0_1.index t (1 : Fin 2) * 64 + 1 * l.val = l.val; omega

/-- A resident input's block at every point is its whole array. -/
theorem blk2 (c : Dev nD) (t : Fin cfg0.N) (l k : Fin 64) :
    iblk0 V c 2 t (ix2 l k) = V c main_v15 (ix2 l k) := by
  obtain ⟨-, -, -, -, e0, e1, -⟩ := index_facts t
  show V c main_v15 (((cfg0.win 2).blk t).view.emb (ix2 l k)) = V c main_v15 (ix2 l k)
  refine congrArg (V c main_v15) (funext fun a => Fin.ext ?_)
  match a with
  | ⟨0, _⟩ => show win0_2.index t (0 : Fin 2) * 64 + 1 * l.val = l.val; omega
  | ⟨1, _⟩ => show win0_2.index t (1 : Fin 2) * 64 + 1 * k.val = k.val; omega

theorem blk3 (c : Dev nD) (t : Fin cfg0.N) (k : Fin 64) :
    iblk0 V c 3 t (ix2 0 k) = V c main_v22 (ix2 0 k) := by
  obtain ⟨-, -, -, -, -, -, e0, e1, -⟩ := index_facts t
  show V c main_v22 (((cfg0.win 3).blk t).view.emb (ix2 0 k)) = V c main_v22 (ix2 0 k)
  refine congrArg (V c main_v22) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

theorem blk4 (c : Dev nD) (t : Fin cfg0.N) (l k : Fin 64) :
    iblk0 V c 4 t (ix2 l k) = V c main_v19 (ix2 l k) := by
  obtain ⟨-, -, -, -, -, -, -, -, e0, e1, -⟩ := index_facts t
  show V c main_v19 (((cfg0.win 4).blk t).view.emb (ix2 l k)) = V c main_v19 (ix2 l k)
  refine congrArg (V c main_v19) (funext fun a => Fin.ext ?_)
  match a with
  | ⟨0, _⟩ => show win0_4.index t (0 : Fin 2) * 64 + 1 * l.val = l.val; omega
  | ⟨1, _⟩ => show win0_4.index t (1 : Fin 2) * 64 + 1 * k.val = k.val; omega

theorem blk5 (c : Dev nD) (t : Fin cfg0.N) (k : Fin 64) :
    iblk0 V c 5 t (ix2 0 k) = V c main_v23 (ix2 0 k) := by
  obtain ⟨-, -, -, -, -, -, -, -, -, -, e0, e1, -⟩ := index_facts t
  show V c main_v23 (((cfg0.win 5).blk t).view.emb (ix2 0 k)) = V c main_v23 (ix2 0 k)
  refine congrArg (V c main_v23) (funext fun a => Fin.ext ?_)
  match a with
  | ⟨0, _⟩ => show win0_5.index t (0 : Fin 2) * 1 + 1 * 0 = 0; omega
  | ⟨1, _⟩ => show win0_5.index t (1 : Fin 2) * 64 + 1 * k.val = k.val; omega

/-- What point t writes back is tile t of the reference's perceptron of the launch's input arrays, the two bias
    rows read as the vectors b1 and b2. -/
theorem flushed_eq (c : Dev nD) (b1 b2 : Row Ideal)
    (hb1 : ∀ k : Fin 64, V c main_v22 (ix2 0 k) = b1 (ix1 k)) (hb2 : ∀ k : Fin 64, V c main_v23 (ix2 0 k) = b2 (ix1 k))
    (t : Fin cfg0.N) :
    (dat0 V c).flushed 6 t = ((cfg0.win 6).blk t).view.read (Elt Ideal)
      (mlpOf (F := Ideal) (V c main_arg0) (V c main_v13) (V c main_v15) b1 (V c main_v19) b2) := by
  show (cfg0.win 6).cut (grid0.coords t) ((dat0 V c).after 6 t) = _
  rw [after0_6]
  unfold out0_6
  rw [View.canon_unit_zero zero2]
  simp only [View.ld_unit_zero (S := S2000x64) zero2, View.ld_unit_zero (S := S64x64) zero2, View.ld_unit_zero (S := S1x64) zero2]
  funext j
  obtain ⟨p, o, rfl⟩ : ∃ (p : Fin 2000) (o : Fin 64), j = ix2 p o := ⟨j 0, j 1, eq_ix2 j⟩
  refine (k0_pay1_apply _ _ _ _ _ _ p o).trans ?_
  show _ = mlpOf (F := Ideal) (V c main_arg0) (V c main_v13) (V c main_v15) b1 (V c main_v19) b2 (((cfg0.win 6).blk t).view.emb (ix2 p o))
  rw [emb_out, mlpOf_apply]
  simp only [blk0 V c t, blk1 V c t, blk2 V c t, blk3 V c t, blk4 V c t, blk5 V c t, hb1, hb2]

/-- An index of the output array is in point t's tile iff its row is one of the tile's 2000 rows. -/
theorem mem_blk (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v24).slice (win0_6.rect t)).set ↔ _
  rw [View.set_slice_whole, Rect.mem_set_unit]
  exact Iff.rfl

/-- Every index of the output array lies in the tile of the point its row falls in. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 2000, by rw [show cfg0.N = 50 from N_0]; omega⟩
  obtain ⟨-, -, -, -, -, -, -, -, -, -, -, -, e0, e1⟩ := index_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 64 ≤ (i 1).val ∧ (i 1).val < win0_6.index t (1 : Fin 2) * 64 + 64; omega

/-- The output array after the launch is the reference's perceptron of the arrays the launch was handed. -/
theorem out_eq (c : Dev nD) (b1 b2 : Row Ideal)
    (hb1 : ∀ k : Fin 64, V c main_v22 (ix2 0 k) = b1 (ix1 k)) (hb2 : ∀ k : Fin 64, V c main_v23 (ix2 0 k) = b2 (ix1 k)) :
    (dat0 V c).arrAt 6 cfg0.N
      = mlpOf (F := Ideal) (V c main_arg0) (V c main_v13) (V c main_v15) b1 (V c main_v19) b2 :=
  (dat0 V c).arrAt_eq_of_cover 6 _ (fun t _ => flushed_eq V c b1 b2 hb1 hb2 t) cover

end Cert.KernelIdeal.GinRegion0

end
-- ==== Proof.RegionBn1.lean ====
/-
  The first normalisation launch: what its output array holds when the launch is over.

  The launch walks 50 grid points. At point t it is handed rows 2000·t … 2000·t + 1999 of z (its moving window)
  and the whole of four rows of 64 entries — the column means, the column variances, the scale and the shift (its
  resident windows) — and writes rows 2000·t … 2000·t + 1999 of the output. The body's result at entry (p, o) of
  the tile is the normalised, scaled, shifted and rectified entry (2000·t + p, o) of z, which is that entry of the
  reference's normalisation of the whole array, provided the two statistics rows are the reference's statistics of
  z; the 50 tiles cover every row.
-/
import proofs.«112492_j4681514352775_1_alg».proof.Proof.Gen.KernelIdeal.Frame
import proofs.«112492_j4681514352775_1_alg».proof.Proof.GinSpec
import proofs.«112492_j4681514352775_1_alg».proof.Proof.BnMath
import Idealize.ShloMosaic.Lib.Pipeline.Value

set_option maxRecDepth 16384

noncomputable section

namespace Cert.KernelIdeal.GinRegion1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.GinSpec (bnOf meanOf varOf Nodes Row)
open Cert.GinBn (bnAt bnOf_apply k1_pay1_apply)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the moving input and the output sit at block row t, the four resident rows at
    block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row 2000·t + p of the whole array, for a point t and a row p of the tile. -/
def rowOf (t : Fin cfg1.N) (p : Fin 2000) : Fin 100000 :=
  ⟨t.val * 2000 + p.val, by have ht : t.val < 50 := t.isLt.trans_eq N_1; have hp := p.isLt; omega⟩

/-- Where entry (p, o) of the output's tile at point t lies in the output array. -/
theorem emb_out (t : Fin cfg1.N) (p : Fin 2000) (o : Fin 64) :
    ((cfg1.win 5).blk t).view.emb (ix2 p o) = ix2 (rowOf t p) o := by
  have e := index_facts t
  funext a; apply Fin.ext
  match a with
  | ⟨0, _⟩ => show win1_5.index t (0 : Fin 2) * 2000 + 1 * p.val = t.val * 2000 + p.val; omega
  | ⟨1, _⟩ => show win1_5.index t (1 : Fin 2) * 64 + 1 * o.val = o.val; omega

/-- The moving input's tile at point t is the same rows of z. -/
theorem blk0 (c : Dev nD) (t : Fin cfg1.N) (p : Fin 2000) (l : Fin 64) :
    iblk1 V c 0 t (ix2 p l) = V c main_v24 (ix2 (rowOf t p) l) := by
  have e := index_facts t
  show V c main_v24 (((cfg1.win 0).blk t).view.emb (ix2 p l)) = V c main_v24 (ix2 (rowOf t p) l)
  refine congrArg (V c main_v24) (funext fun a => Fin.ext ?_)
  match a with
  | ⟨0, _⟩ => show win1_0.index t (0 : Fin 2) * 2000 + 1 * p.val = t.val * 2000 + p.val; omega
  | ⟨1, _⟩ => show win1_0.index t (1 : Fin 2) * 64 + 1 * l.val = l.val; omega

/-- A resident row's block at every point is the whole row. -/
theorem blk1 (c : Dev nD) (t : Fin cfg1.N) (k : Fin 64) :
    iblk1 V c 1 t (ix2 0 k) = V c main_v28 (ix2 0 k) := by
  have e := index_facts t
  show V c main_v28 (((cfg1.win 1).blk t).view.emb (ix2 0 k)) = V c main_v28 (ix2 0 k)
  refine congrArg (V c main_v28) (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

theorem blk2 (c : Dev nD) (t : Fin cfg1.N) (k : Fin 64) :
    iblk1 V c 2 t (ix2 0 k) = V c main_v35 (ix2 0 k) := by
  have e := index_facts t
  show V c main_v35 (((cfg1.win 2).blk t).view.emb (ix2 0 k)) = V c main_v35 (ix2 0 k)
  refine congrArg (V c main_v35) (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

theorem blk3 (c : Dev nD) (t : Fin cfg1.N) (k : Fin 64) :
    iblk1 V c 3 t (ix2 0 k) = V c main_v40 (ix2 0 k) := by
  have e := index_facts t
  show V c main_v40 (((cfg1.win 3).blk t).view.emb (ix2 0 k)) = V c main_v40 (ix2 0 k)
  refine congrArg (V c main_v40) (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

theorem blk4 (c : Dev nD) (t : Fin cfg1.N) (k : Fin 64) :
    iblk1 V c 4 t (ix2 0 k) = V c main_v41 (ix2 0 k) := by
  have e := index_facts t
  show V c main_v41 (((cfg1.win 4).blk t).view.emb (ix2 0 k)) = V c main_v41 (ix2 0 k)
  refine congrArg (V c main_v41) (funext fun a => Fin.ext ?_)
  match a with
  | ⟨0, _⟩ => show win1_4.index t (0 : Fin 2) * 1 + 1 * 0 = 0; omega
  | ⟨1, _⟩ => show win1_4.index t (1 : Fin 2) * 64 + 1 * k.val = k.val; omega

/-- What point t writes back is tile t of the reference's normalisation of z, when the two statistics rows hold
    the reference's column means and variances of z and the scale and shift rows the vectors g and b. -/
theorem flushed_eq (c : Dev nD) (g b : Row Ideal)
    (hmean : ∀ k : Fin 64, V c main_v28 (ix2 0 k) = meanOf (F := Ideal) (V c main_v24) (ix1 k))
    (hvar : ∀ k : Fin 64, V c main_v35 (ix2 0 k) = varOf (F := Ideal) (V c main_v24) (ix1 k))
    (hg : ∀ k : Fin 64, V c main_v40 (ix2 0 k) = g (ix1 k)) (hb : ∀ k : Fin 64, V c main_v41 (ix2 0 k) = b (ix1 k))
    (t : Fin cfg1.N) :
    (dat1 V c).flushed 5 t = ((cfg1.win 5).blk t).view.read (Elt Ideal) (bnOf (F := Ideal) (V c main_v24) g b) := by
  show (cfg1.win 5).cut (grid1.coords t) ((dat1 V c).after 5 t) = _
  rw [after1_5]
  unfold out1_5
  rw [View.canon_unit_zero zero2]
  simp only [View.ld_unit_zero (S := S2000x64) zero2, View.ld_unit_zero (S := S1x64) zero2]
  funext j
  obtain ⟨p, o, rfl⟩ : ∃ (p : Fin 2000) (o : Fin 64), j = ix2 p o := ⟨j 0, j 1, eq_ix2 j⟩
  refine (k1_pay1_apply _ _ _ _ _ p o).trans ?_
  show _ = bnOf (F := Ideal) (V c main_v24) g b (((cfg1.win 5).blk t).view.emb (ix2 p o))
  rw [emb_out, bnOf_apply]
  simp only [blk0 V c t, blk1 V c t, blk2 V c t, blk3 V c t, blk4 V c t, hmean, hvar, hg, hb]

/-- An index of the output array is in point t's tile iff its row is one of the tile's 2000 rows. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v42).slice (win1_5.rect t)).set ↔ _
  rw [View.set_slice_whole, Rect.mem_set_unit]
  exact Iff.rfl

/-- Every index of the output array lies in the tile of the point its row falls in. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 2000, by rw [show cfg1.N = 50 from N_1]; omega⟩
  have e := index_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The output array after the launch is the reference's normalisation of the array the launch was handed. -/
theorem out_eq (c : Dev nD) (g b : Row Ideal)
    (hmean : ∀ k : Fin 64, V c main_v28 (ix2 0 k) = meanOf (F := Ideal) (V c main_v24) (ix1 k))
    (hvar : ∀ k : Fin 64, V c main_v35 (ix2 0 k) = varOf (F := Ideal) (V c main_v24) (ix1 k))
    (hg : ∀ k : Fin 64, V c main_v40 (ix2 0 k) = g (ix1 k)) (hb : ∀ k : Fin 64, V c main_v41 (ix2 0 k) = b (ix1 k)) :
    (dat1 V c).arrAt 5 cfg1.N = bnOf (F := Ideal) (V c main_v24) g b :=
  (dat1 V c).arrAt_eq_of_cover 5 _ (fun t _ => flushed_eq V c g b hmean hvar hg hb t) cover

end Cert.KernelIdeal.GinRegion1

end
-- ==== Proof.RegionMlp2.lean ====
/-
  The second perceptron launch: what its output array holds when the launch is over.

  The launch walks 50 grid points. At point t it is handed rows 2000·t … 2000·t + 1999 of h and of agg (its two
  moving windows), the whole of W1, W2 and of the two bias rows (its four resident windows), and writes rows
  2000·t … 2000·t + 1999 of the output. The body's result at entry (p, o) of the tile is the perceptron's value
  on row 2000·t + p, which is entry (2000·t + p, o) of the reference's perceptron over the whole arrays; the 50
  tiles cover every row, so the output array is the reference's perceptron of the launch's input arrays.
-/
import proofs.«112492_j4681514352775_1_alg».proof.Proof.Gen.KernelIdeal.Frame
import proofs.«112492_j4681514352775_1_alg».proof.Proof.GinSpec
import proofs.«112492_j4681514352775_1_alg».proof.Proof.MlpMath
import Idealize.ShloMosaic.Lib.Pipeline.Value

set_option maxRecDepth 16384

noncomputable section

namespace Cert.KernelIdeal.GinRegion2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.GinSpec (mlpOf Nodes Mat Row)
open Cert.GinMlp (mlpAt mlpOf_apply k2_pay1_apply)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the two moving inputs and the output sit at block row t, the four resident
    inputs at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row 2000·t + p of the whole array, for a point t and a row p of the tile. -/
def rowOf (t : Fin cfg2.N) (p : Fin 2000) : Fin 100000 :=
  ⟨t.val * 2000 + p.val, by have ht : t.val < 50 := t.isLt.trans_eq N_2; have hp := p.isLt; omega⟩

/-- Where entry (p, o) of the output's tile at point t lies in the output array. -/
theorem emb_out (t : Fin cfg2.N) (p : Fin 2000) (o : Fin 64) :
    ((cfg2.win 6).blk t).view.emb (ix2 p o) = ix2 (rowOf t p) o := by
  obtain ⟨-, -, -, -, -, -, -, -, -, -, -, -, e0, e1⟩ := index_facts t
  funext a; apply Fin.ext
  match a with
  | ⟨0, _⟩ => show win2_6.index t (0 : Fin 2) * 2000 + 1 * p.val = t.val * 2000 + p.val; omega
  | ⟨1, _⟩ => show win2_6.index t (1 : Fin 2) * 64 + 1 * o.val = o.val; omega

/-- A moving input's tile at point t is the same rows of its array. -/
theorem blk0 (c : Dev nD) (t : Fin cfg2.N) (p : Fin 2000) (l : Fin 64) :
    iblk2 V c 0 t (ix2 p l) = V c main_v42 (ix2 (rowOf t p) l) := by
  obtain ⟨e0, e1, -⟩ := index_facts t
  show V c main_v42 (((cfg2.win 0).blk t).view.emb (ix2 p l)) = V c main_v42 (ix2 (rowOf t p) l)
  refine congrArg (V c main_v42) (funext fun a => Fin.ext ?_)
  match a with
  | ⟨0, _⟩ => show win2_0.index t (0 : Fin 2) * 2000 + 1 * p.val = t.val * 2000 + p.val; omega
  | ⟨1, _⟩ => show win2_0.index t (1 : Fin 2) * 64 + 1 * l.val = l.val; omega

theorem blk1 (c : Dev nD) (t : Fin cfg2.N) (p : Fin 2000) (l : Fin 64) :
    iblk2 V c 1 t (ix2 p l) = V c main_v52 (ix2 (rowOf t p) l) := by
  obtain ⟨-, -, e0, e1, -⟩ := index_facts t
  show V c main_v52 (((cfg2.win 1).blk t).view.emb (ix2 p l)) = V c main_v52 (ix2 (rowOf t p) l)
  refine congrArg (V c main_v52) (funext fun a => Fin.ext ?_)
  match a with
  | ⟨0, _⟩ => show win2_1.index t (0 : Fin 2) * 2000 + 1 * p.val = t.val * 2000 + p.val; omega
  | ⟨1, _⟩ => show win2_1.index t (1 : Fin 2) * 64 + 1 * l.val = l.val; omega

/-- A resident input's block at every point is its whole array. -/
theorem blk2 (c : Dev nD) (t : Fin cfg2.N) (l k : Fin 64) :
    iblk2 V c 2 t (ix2 l k) = V c main_v54 (ix2 l k) := by
  obtain ⟨-, -, -, -, e0, e1, -⟩ := index_facts t
  show V c main_v54 (((cfg2.win 2).blk t).view.emb (ix2 l k)) = V c main_v54 (ix2 l k)
  refine congrArg (V c main_v54) (funext fun a => Fin.ext ?_)
  match a with
  | ⟨0, _⟩ => show win2_2.index t (0 : Fin 2) * 64 + 1 * l.val = l.val; omega
  | ⟨1, _⟩ => show win2_2.index t (1 : Fin 2) * 64 + 1 * k.val = k.val; omega

theorem blk3 (c : Dev nD) (t : Fin cfg2.N) (k : Fin 64) :
    iblk2 V c 3 t (ix2 0 k) = V c main_v61 (ix2 0 k) := by
  obtain ⟨-, -, -, -, -, -, e0, e1, -⟩ := index_facts t
  show V c main_v61 (((cfg2.win 3).blk t).view.emb (ix2 0 k)) = V c main_v61 (ix2 0 k)
  refine congrArg (V c main_v61) (funext fun a => Fin.ext ?_)
  match a with
  | ⟨0, _⟩ => show win2_3.index t (0 : Fin 2) * 1 + 1 * 0 = 0; omega
  | ⟨1, _⟩ => show win2_3.index t (1 : Fin 2) * 64 + 1 * k.val = k.val; omega

theorem blk4 (c : Dev nD) (t : Fin cfg2.N) (l k : Fin 64) :
    iblk2 V c 4 t (ix2 l k) = V c main_v58 (ix2 l k) := by
  obtain ⟨-, -, -, -, -, -, -, -, e0, e1, -⟩ := index_facts t
  show V c main_v58 (((cfg2.win 4).blk t).view.emb (ix2 l k)) = V c main_v58 (ix2 l k)
  refine congrArg (V c main_v58) (funext fun a => Fin.ext ?_)
  match a with
  | ⟨0, _⟩ => show win2_4.index t (0 : Fin 2) * 64 + 1 * l.val = l.val; omega
  | ⟨1, _⟩ => show win2_4.index t (1 : Fin 2) * 64 + 1 * k.val = k.val; omega

theorem blk5 (c : Dev nD) (t : Fin cfg2.N) (k : Fin 64) :
    iblk2 V c 5 t (ix2 0 k) = V c main_v62 (ix2 0 k) := by
  obtain ⟨-, -, -, -, -, -, -, -, -, -, e0, e1, -⟩ := index_facts t
  show V c main_v62 (((cfg2.win 5).blk t).view.emb (ix2 0 k)) = V c main_v62 (ix2 0 k)
  refine congrArg (V c main_v62) (funext fun a => Fin.ext ?_)
  match a with
  | ⟨0, _⟩ => show win2_5.index t (0 : Fin 2) * 1 + 1 * 0 = 0; omega
  | ⟨1, _⟩ => show win2_5.index t (1 : Fin 2) * 64 + 1 * k.val = k.val; omega

/-- What point t writes back is tile t of the reference's perceptron of the launch's input arrays, the two bias
    rows read as the vectors b1 and b2. -/
theorem flushed_eq (c : Dev nD) (b1 b2 : Row Ideal)
    (hb1 : ∀ k : Fin 64, V c main_v61 (ix2 0 k) = b1 (ix1 k)) (hb2 : ∀ k : Fin 64, V c main_v62 (ix2 0 k) = b2 (ix1 k))
    (t : Fin cfg2.N) :
    (dat2 V c).flushed 6 t = ((cfg2.win 6).blk t).view.read (Elt Ideal)
      (mlpOf (F := Ideal) (V c main_v42) (V c main_v52) (V c main_v54) b1 (V c main_v58) b2) := by
  show (cfg2.win 6).cut (grid2.coords t) ((dat2 V c).after 6 t) = _
  rw [after2_6]
  unfold out2_6
  rw [View.canon_unit_zero zero2]
  simp only [View.ld_unit_zero (S := S2000x64) zero2, View.ld_unit_zero (S := S64x64) zero2, View.ld_unit_zero (S := S1x64) zero2]
  funext j
  obtain ⟨p, o, rfl⟩ : ∃ (p : Fin 2000) (o : Fin 64), j = ix2 p o := ⟨j 0, j 1, eq_ix2 j⟩
  refine (k2_pay1_apply _ _ _ _ _ _ p o).trans ?_
  show _ = mlpOf (F := Ideal) (V c main_v42) (V c main_v52) (V c main_v54) b1 (V c main_v58) b2 (((cfg2.win 6).blk t).view.emb (ix2 p o))
  rw [emb_out, mlpOf_apply]
  simp only [blk0 V c t, blk1 V c t, blk2 V c t, blk3 V c t, blk4 V c t, blk5 V c t, hb1, hb2]

/-- An index of the output array is in point t's tile iff its row is one of the tile's 2000 rows. -/
theorem mem_blk (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v63).slice (win2_6.rect t)).set ↔ _
  rw [View.set_slice_whole, Rect.mem_set_unit]
  exact Iff.rfl

/-- Every index of the output array lies in the tile of the point its row falls in. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  let t : Fin cfg2.N := ⟨(i 0).val / 2000, by rw [show cfg2.N = 50 from N_2]; omega⟩
  obtain ⟨-, -, -, -, -, -, -, -, -, -, -, -, e0, e1⟩ := index_facts t
  have ht : t.val = (i 0).val / 2000 := rfl
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- The output array after the launch is the reference's perceptron of the arrays the launch was handed. -/
theorem out_eq (c : Dev nD) (b1 b2 : Row Ideal)
    (hb1 : ∀ k : Fin 64, V c main_v61 (ix2 0 k) = b1 (ix1 k)) (hb2 : ∀ k : Fin 64, V c main_v62 (ix2 0 k) = b2 (ix1 k)) :
    (dat2 V c).arrAt 6 cfg2.N
      = mlpOf (F := Ideal) (V c main_v42) (V c main_v52) (V c main_v54) b1 (V c main_v58) b2 :=
  (dat2 V c).arrAt_eq_of_cover 6 _ (fun t _ => flushed_eq V c b1 b2 hb1 hb2 t) cover

end Cert.KernelIdeal.GinRegion2

end
-- ==== Proof.RegionBn3.lean ====
/-
  The second normalisation launch: what its output array holds when the launch is over.

  The launch walks 50 grid points. At point t it is handed rows 2000·t … 2000·t + 1999 of z (its moving window)
  and the whole of four rows of 64 entries — the column means, the column variances, the scale and the shift (its
  resident windows) — and writes rows 2000·t … 2000·t + 1999 of the output. The body's result at entry (p, o) of
  the tile is the normalised, scaled, shifted and rectified entry (2000·t + p, o) of z, which is that entry of the
  reference's normalisation of the whole array, provided the two statistics rows are the reference's statistics of
  z; the 50 tiles cover every row.
-/
import proofs.«112492_j4681514352775_1_alg».proof.Proof.Gen.KernelIdeal.Frame
import proofs.«112492_j4681514352775_1_alg».proof.Proof.GinSpec
import proofs.«112492_j4681514352775_1_alg».proof.Proof.BnMath
import Idealize.ShloMosaic.Lib.Pipeline.Value

set_option maxRecDepth 16384

noncomputable section

namespace Cert.KernelIdeal.GinRegion3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.GinSpec (bnOf meanOf varOf Nodes Row)
open Cert.GinBn (bnAt bnOf_apply k3_pay1_apply)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the moving input and the output sit at block row t, the four resident rows at
    block (0, 0). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row 2000·t + p of the whole array, for a point t and a row p of the tile. -/
def rowOf (t : Fin cfg3.N) (p : Fin 2000) : Fin 100000 :=
  ⟨t.val * 2000 + p.val, by have ht : t.val < 50 := t.isLt.trans_eq N_3; have hp := p.isLt; omega⟩

/-- Where entry (p, o) of the output's tile at point t lies in the output array. -/
theorem emb_out (t : Fin cfg3.N) (p : Fin 2000) (o : Fin 64) :
    ((cfg3.win 5).blk t).view.emb (ix2 p o) = ix2 (rowOf t p) o := by
  have e := index_facts t
  funext a; apply Fin.ext
  match a with
  | ⟨0, _⟩ => show win3_5.index t (0 : Fin 2) * 2000 + 1 * p.val = t.val * 2000 + p.val; omega
  | ⟨1, _⟩ => show win3_5.index t (1 : Fin 2) * 64 + 1 * o.val = o.val; omega

/-- The moving input's tile at point t is the same rows of z. -/
theorem blk0 (c : Dev nD) (t : Fin cfg3.N) (p : Fin 2000) (l : Fin 64) :
    iblk3 V c 0 t (ix2 p l) = V c main_v63 (ix2 (rowOf t p) l) := by
  have e := index_facts t
  show V c main_v63 (((cfg3.win 0).blk t).view.emb (ix2 p l)) = V c main_v63 (ix2 (rowOf t p) l)
  refine congrArg (V c main_v63) (funext fun a => Fin.ext ?_)
  match a with
  | ⟨0, _⟩ => show win3_0.index t (0 : Fin 2) * 2000 + 1 * p.val = t.val * 2000 + p.val; omega
  | ⟨1, _⟩ => show win3_0.index t (1 : Fin 2) * 64 + 1 * l.val = l.val; omega

/-- A resident row's block at every point is the whole row. -/
theorem blk1 (c : Dev nD) (t : Fin cfg3.N) (k : Fin 64) :
    iblk3 V c 1 t (ix2 0 k) = V c main_v67 (ix2 0 k) := by
  have e := index_facts t
  show V c main_v67 (((cfg3.win 1).blk t).view.emb (ix2 0 k)) = V c main_v67 (ix2 0 k)
  refine congrArg (V c main_v67) (funext fun a => Fin.ext ?_)
  match a with
  | ⟨0, _⟩ => show win3_1.index t (0 : Fin 2) * 1 + 1 * 0 = 0; omega
  | ⟨1, _⟩ => show win3_1.index t (1 : Fin 2) * 64 + 1 * k.val = k.val; omega

theorem blk2 (c : Dev nD) (t : Fin cfg3.N) (k : Fin 64) :
    iblk3 V c 2 t (ix2 0 k) = V c main_v74 (ix2 0 k) := by
  have e := index_facts t
  show V c main_v74 (((cfg3.win 2).blk t).view.emb (ix2 0 k)) = V c main_v74 (ix2 0 k)
  refine congrArg (V c main_v74) (funext fun a => Fin.ext ?_)
  match a with
  | ⟨0, _⟩ => show win3_2.index t (0 : Fin 2) * 1 + 1 * 0 = 0; omega
  | ⟨1, _⟩ => show win3_2.index t (1 : Fin 2) * 64 + 1 * k.val = k.val; omega

theorem blk3 (c : Dev nD) (t : Fin cfg3.N) (k : Fin 64) :
    iblk3 V c 3 t (ix2 0 k) = V c main_v79 (ix2 0 k) := by
  have e := index_facts t
  show V c main_v79 (((cfg3.win 3).blk t).view.emb (ix2 0 k)) = V c main_v79 (ix2 0 k)
  refine congrArg (V c main_v79) (funext fun a => Fin.ext ?_)
  match a with
  | ⟨0, _⟩ => show win3_3.index t (0 : Fin 2) * 1 + 1 * 0 = 0; omega
  | ⟨1, _⟩ => show win3_3.index t (1 : Fin 2) * 64 + 1 * k.val = k.val; omega

theorem blk4 (c : Dev nD) (t : Fin cfg3.N) (k : Fin 64) :
    iblk3 V c 4 t (ix2 0 k) = V c main_v80 (ix2 0 k) := by
  have e := index_facts t
  show V c main_v80 (((cfg3.win 4).blk t).view.emb (ix2 0 k)) = V c main_v80 (ix2 0 k)
  refine congrArg (V c main_v80) (funext fun a => Fin.ext ?_)
  match a with
  | ⟨0, _⟩ => show win3_4.index t (0 : Fin 2) * 1 + 1 * 0 = 0; omega
  | ⟨1, _⟩ => show win3_4.index t (1 : Fin 2) * 64 + 1 * k.val = k.val; omega

/-- What point t writes back is tile t of the reference's normalisation of z, when the two statistics rows hold
    the reference's column means and variances of z and the scale and shift rows the vectors g and b. -/
theorem flushed_eq (c : Dev nD) (g b : Row Ideal)
    (hmean : ∀ k : Fin 64, V c main_v67 (ix2 0 k) = meanOf (F := Ideal) (V c main_v63) (ix1 k))
    (hvar : ∀ k : Fin 64, V c main_v74 (ix2 0 k) = varOf (F := Ideal) (V c main_v63) (ix1 k))
    (hg : ∀ k : Fin 64, V c main_v79 (ix2 0 k) = g (ix1 k)) (hb : ∀ k : Fin 64, V c main_v80 (ix2 0 k) = b (ix1 k))
    (t : Fin cfg3.N) :
    (dat3 V c).flushed 5 t = ((cfg3.win 5).blk t).view.read (Elt Ideal) (bnOf (F := Ideal) (V c main_v63) g b) := by
  show (cfg3.win 5).cut (grid3.coords t) ((dat3 V c).after 5 t) = _
  rw [after3_5]
  unfold out3_5
  rw [View.canon_unit_zero zero2]
  simp only [View.ld_unit_zero (S := S2000x64) zero2, View.ld_unit_zero (S := S1x64) zero2]
  funext j
  obtain ⟨p, o, rfl⟩ : ∃ (p : Fin 2000) (o : Fin 64), j = ix2 p o := ⟨j 0, j 1, eq_ix2 j⟩
  refine (k3_pay1_apply _ _ _ _ _ p o).trans ?_
  show _ = bnOf (F := Ideal) (V c main_v63) g b (((cfg3.win 5).blk t).view.emb (ix2 p o))
  rw [emb_out, bnOf_apply]
  simp only [blk0 V c t, blk1 V c t, blk2 V c t, blk3 V c t, blk4 V c t, hmean, hvar, hg, hb]

/-- An index of the output array is in point t's tile iff its row is one of the tile's 2000 rows. -/
theorem mem_blk (t : Fin cfg3.N) (i : S100000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v81).slice (win3_5.rect t)).set ↔ _
  rw [View.set_slice_whole, Rect.mem_set_unit]
  exact Iff.rfl

/-- Every index of the output array lies in the tile of the point its row falls in. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 2000, by rw [show cfg3.N = 50 from N_3]; omega⟩
  have e := index_facts t
  have ht : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 64 ≤ (i 1).val ∧ (i 1).val < win3_5.index t (1 : Fin 2) * 64 + 64; omega

/-- The output array after the launch is the reference's normalisation of the array the launch was handed. -/
theorem out_eq (c : Dev nD) (g b : Row Ideal)
    (hmean : ∀ k : Fin 64, V c main_v67 (ix2 0 k) = meanOf (F := Ideal) (V c main_v63) (ix1 k))
    (hvar : ∀ k : Fin 64, V c main_v74 (ix2 0 k) = varOf (F := Ideal) (V c main_v63) (ix1 k))
    (hg : ∀ k : Fin 64, V c main_v79 (ix2 0 k) = g (ix1 k)) (hb : ∀ k : Fin 64, V c main_v80 (ix2 0 k) = b (ix1 k)) :
    (dat3 V c).arrAt 5 cfg3.N = bnOf (F := Ideal) (V c main_v63) g b :=
  (dat3 V c).arrAt_eq_of_cover 5 _ (fun t _ => flushed_eq V c g b hmean hvar hg hb t) cover

end Cert.KernelIdeal.GinRegion3

end
-- ==== Proof.RegionMlp4.lean ====
/-
  The third perceptron launch: what its output array holds when the launch is over.

  The launch walks 50 grid points. At point t it is handed rows 2000·t … 2000·t + 1999 of h and of agg (its two
  moving windows), the whole of W1, W2 and of the two bias rows (its four resident windows), and writes rows
  2000·t … 2000·t + 1999 of the output. The body's result at entry (p, o) of the tile is the perceptron's value
  on row 2000·t + p, which is entry (2000·t + p, o) of the reference's perceptron over the whole arrays; the 50
  tiles cover every row, so the output array is the reference's perceptron of the launch's input arrays.
-/
import proofs.«112492_j4681514352775_1_alg».proof.Proof.Gen.KernelIdeal.Frame
import proofs.«112492_j4681514352775_1_alg».proof.Proof.GinSpec
import proofs.«112492_j4681514352775_1_alg».proof.Proof.MlpMath
import Idealize.ShloMosaic.Lib.Pipeline.Value

set_option maxRecDepth 16384

noncomputable section

namespace Cert.KernelIdeal.GinRegion4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.GinSpec (mlpOf Nodes Mat Row)
open Cert.GinMlp (mlpAt mlpOf_apply k4_pay1_apply)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the two moving inputs and the output sit at block row t, the four resident
    inputs at block (0, 0). -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row 2000·t + p of the whole array, for a point t and a row p of the tile. -/
def rowOf (t : Fin cfg4.N) (p : Fin 2000) : Fin 100000 :=
  ⟨t.val * 2000 + p.val, by have ht : t.val < 50 := t.isLt.trans_eq N_4; have hp := p.isLt; omega⟩

/-- Where entry (p, o) of the output's tile at point t lies in the output array. -/
theorem emb_out (t : Fin cfg4.N) (p : Fin 2000) (o : Fin 64) :
    ((cfg4.win 6).blk t).view.emb (ix2 p o) = ix2 (rowOf t p) o := by
  obtain ⟨-, -, -, -, -, -, -, -, -, -, -, -, e0, e1⟩ := index_facts t
  funext a; apply Fin.ext
  match a with
  | ⟨0, _⟩ => show win4_6.index t (0 : Fin 2) * 2000 + 1 * p.val = t.val * 2000 + p.val; omega
  | ⟨1, _⟩ => show win4_6.index t (1 : Fin 2) * 64 + 1 * o.val = o.val; omega

/-- A moving input's tile at point t is the same rows of its array. -/
theorem blk0 (c : Dev nD) (t : Fin cfg4.N) (p : Fin 2000) (l : Fin 64) :
    iblk4 V c 0 t (ix2 p l) = V c main_v81 (ix2 (rowOf t p) l) := by
  obtain ⟨e0, e1, -⟩ := index_facts t
  show V c main_v81 (((cfg4.win 0).blk t).view.emb (ix2 p l)) = V c main_v81 (ix2 (rowOf t p) l)
  refine congrArg (V c main_v81) (funext fun a => Fin.ext ?_)
  match a with
  | ⟨0, _⟩ => show win4_0.index t (0 : Fin 2) * 2000 + 1 * p.val = t.val * 2000 + p.val; omega
  | ⟨1, _⟩ => show win4_0.index t (1 : Fin 2) * 64 + 1 * l.val = l.val; omega

theorem blk1 (c : Dev nD) (t : Fin cfg4.N) (p : Fin 2000) (l : Fin 64) :
    iblk4 V c 1 t (ix2 p l) = V c main_v91 (ix2 (rowOf t p) l) := by
  obtain ⟨-, -, e0, e1, -⟩ := index_facts t
  show V c main_v91 (((cfg4.win 1).blk t).view.emb (ix2 p l)) = V c main_v91 (ix2 (rowOf t p) l)
  refine congrArg (V c main_v91) (funext fun a => Fin.ext ?_)
  match a with
  | ⟨0, _⟩ => show win4_1.index t (0 : Fin 2) * 2000 + 1 * p.val = t.val * 2000 + p.val; omega
  | ⟨1, _⟩ => show win4_1.index t (1 : Fin 2) * 64 + 1 * l.val = l.val; omega

/-- A resident input's block at every point is its whole array. -/
theorem blk2 (c : Dev nD) (t : Fin cfg4.N) (l k : Fin 64) :
    iblk4 V c 2 t (ix2 l k) = V c main_v93 (ix2 l k) := by
  obtain ⟨-, -, -, -, e0, e1, -⟩ := index_facts t
  show V c main_v93 (((cfg4.win 2).blk t).view.emb (ix2 l k)) = V c main_v93 (ix2 l k)
  refine congrArg (V c main_v93) (funext fun a => Fin.ext ?_)
  match a with
  | ⟨0, _⟩ => show win4_2.index t (0 : Fin 2) * 64 + 1 * l.val = l.val; omega
  | ⟨1, _⟩ => show win4_2.index t (1 : Fin 2) * 64 + 1 * k.val = k.val; omega

theorem blk3 (c : Dev nD) (t : Fin cfg4.N) (k : Fin 64) :
    iblk4 V c 3 t (ix2 0 k) = V c main_v100 (ix2 0 k) := by
  obtain ⟨-, -, -, -, -, -, e0, e1, -⟩ := index_facts t
  show V c main_v100 (((cfg4.win 3).blk t).view.emb (ix2 0 k)) = V c main_v100 (ix2 0 k)
  refine congrArg (V c main_v100) (funext fun a => Fin.ext ?_)
  match a with
  | ⟨0, _⟩ => show win4_3.index t (0 : Fin 2) * 1 + 1 * 0 = 0; omega
  | ⟨1, _⟩ => show win4_3.index t (1 : Fin 2) * 64 + 1 * k.val = k.val; omega

theorem blk4 (c : Dev nD) (t : Fin cfg4.N) (l k : Fin 64) :
    iblk4 V c 4 t (ix2 l k) = V c main_v97 (ix2 l k) := by
  obtain ⟨-, -, -, -, -, -, -, -, e0, e1, -⟩ := index_facts t
  show V c main_v97 (((cfg4.win 4).blk t).view.emb (ix2 l k)) = V c main_v97 (ix2 l k)
  refine congrArg (V c main_v97) (funext fun a => Fin.ext ?_)
  match a with
  | ⟨0, _⟩ => show win4_4.index t (0 : Fin 2) * 64 + 1 * l.val = l.val; omega
  | ⟨1, _⟩ => show win4_4.index t (1 : Fin 2) * 64 + 1 * k.val = k.val; omega

theorem blk5 (c : Dev nD) (t : Fin cfg4.N) (k : Fin 64) :
    iblk4 V c 5 t (ix2 0 k) = V c main_v101 (ix2 0 k) := by
  obtain ⟨-, -, -, -, -, -, -, -, -, -, e0, e1, -⟩ := index_facts t
  show V c main_v101 (((cfg4.win 5).blk t).view.emb (ix2 0 k)) = V c main_v101 (ix2 0 k)
  refine congrArg (V c main_v101) (funext fun a => Fin.ext ?_)
  match a with
  | ⟨0, _⟩ => show win4_5.index t (0 : Fin 2) * 1 + 1 * 0 = 0; omega
  | ⟨1, _⟩ => show win4_5.index t (1 : Fin 2) * 64 + 1 * k.val = k.val; omega

/-- What point t writes back is tile t of the reference's perceptron of the launch's input arrays, the two bias
    rows read as the vectors b1 and b2. -/
theorem flushed_eq (c : Dev nD) (b1 b2 : Row Ideal)
    (hb1 : ∀ k : Fin 64, V c main_v100 (ix2 0 k) = b1 (ix1 k)) (hb2 : ∀ k : Fin 64, V c main_v101 (ix2 0 k) = b2 (ix1 k))
    (t : Fin cfg4.N) :
    (dat4 V c).flushed 6 t = ((cfg4.win 6).blk t).view.read (Elt Ideal)
      (mlpOf (F := Ideal) (V c main_v81) (V c main_v91) (V c main_v93) b1 (V c main_v97) b2) := by
  show (cfg4.win 6).cut (grid4.coords t) ((dat4 V c).after 6 t) = _
  rw [after4_6]
  unfold out4_6
  rw [View.canon_unit_zero zero2]
  simp only [View.ld_unit_zero (S := S2000x64) zero2, View.ld_unit_zero (S := S64x64) zero2, View.ld_unit_zero (S := S1x64) zero2]
  funext j
  obtain ⟨p, o, rfl⟩ : ∃ (p : Fin 2000) (o : Fin 64), j = ix2 p o := ⟨j 0, j 1, eq_ix2 j⟩
  refine (k4_pay1_apply _ _ _ _ _ _ p o).trans ?_
  show _ = mlpOf (F := Ideal) (V c main_v81) (V c main_v91) (V c main_v93) b1 (V c main_v97) b2 (((cfg4.win 6).blk t).view.emb (ix2 p o))
  rw [emb_out, mlpOf_apply]
  simp only [blk0 V c t, blk1 V c t, blk2 V c t, blk3 V c t, blk4 V c t, blk5 V c t, hb1, hb2]

/-- An index of the output array is in point t's tile iff its row is one of the tile's 2000 rows. -/
theorem mem_blk (t : Fin cfg4.N) (i : S100000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v102).slice (win4_6.rect t)).set ↔ _
  rw [View.set_slice_whole, Rect.mem_set_unit]
  exact Iff.rfl

/-- Every index of the output array lies in the tile of the point its row falls in. -/
theorem cover (i : S100000x64.Idx) :
    ∃ t : Fin cfg4.N, (cfg4.win 6).flush t = true ∧ i ∈ ((cfg4.win 6).blk t).view.set := by
  have hi0 : (i 0).val < 100000 := (i 0).isLt
  have hi1 : (i 1).val < 64 := (i 1).isLt
  let t : Fin cfg4.N := ⟨(i 0).val / 2000, by rw [show cfg4.N = 50 from N_4]; omega⟩
  obtain ⟨-, -, -, -, -, -, -, -, -, -, -, -, e0, e1⟩ := index_facts t
  have ht : t.val = (i 0).val / 2000 := rfl
  refine ⟨t, flush4_6 t, ?_⟩
  rw [mem_blk]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 64 ≤ (i 1).val ∧ (i 1).val < win4_6.index t (1 : Fin 2) * 64 + 64; omega

/-- The output array after the launch is the reference's perceptron of the arrays the launch was handed. -/
theorem out_eq (c : Dev nD) (b1 b2 : Row Ideal)
    (hb1 : ∀ k : Fin 64, V c main_v100 (ix2 0 k) = b1 (ix1 k)) (hb2 : ∀ k : Fin 64, V c main_v101 (ix2 0 k) = b2 (ix1 k)) :
    (dat4 V c).arrAt 6 cfg4.N
      = mlpOf (F := Ideal) (V c main_v81) (V c main_v91) (V c main_v93) b1 (V c main_v97) b2 :=
  (dat4 V c).arrAt_eq_of_cover 6 _ (fun t _ => flushed_eq V c b1 b2 hb1 hb2 t) cover

end Cert.KernelIdeal.GinRegion4

end
-- ==== Proof.RegionBn5.lean ====
/-
  The third normalisation launch: what its output array holds when the launch is over.

  The launch walks 50 grid points. At point t it is handed rows 2000·t … 2000·t + 1999 of z (its moving window)
  and the whole of four rows of 64 entries — the column means, the column variances, the scale and the shift (its
  resident windows) — and writes rows 2000·t … 2000·t + 1999 of the output. The body's result at entry (p, o) of
  the tile is the normalised, scaled, shifted and rectified entry (2000·t + p, o) of z, which is that entry of the
  reference's normalisation of the whole array, provided the two statistics rows are the reference's statistics of
  z; the 50 tiles cover every row.
-/
import proofs.«112492_j4681514352775_1_alg».proof.Proof.Gen.KernelIdeal.Frame
import proofs.«112492_j4681514352775_1_alg».proof.Proof.GinSpec
import proofs.«112492_j4681514352775_1_alg».proof.Proof.BnMath
import Idealize.ShloMosaic.Lib.Pipeline.Value

set_option maxRecDepth 16384

noncomputable section

namespace Cert.KernelIdeal.GinRegion5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.GinSpec (bnOf meanOf varOf Nodes Row)
open Cert.GinBn (bnAt bnOf_apply k5_pay1_apply)

variable (V : (c : Dev nD) → (b : Ref sig .tc) → Buf (Elt Ideal) ((c : Thread nD τ).loc b))

theorem zero2 : (![0, 0] : Fin 2 → Nat) = fun _ => 0 := funext fun a => by fin_cases a <;> rfl

/-- The index maps over the grid: the moving input and the output sit at block row t, the four resident rows at
    block (0, 0). -/
theorem index_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row 2000·t + p of the whole array, for a point t and a row p of the tile. -/
def rowOf (t : Fin cfg5.N) (p : Fin 2000) : Fin 100000 :=
  ⟨t.val * 2000 + p.val, by have ht : t.val < 50 := t.isLt.trans_eq N_5; have hp := p.isLt; omega⟩

/-- Where entry (p, o) of the output's tile at point t lies in the output array. -/
theorem emb_out (t : Fin cfg5.N) (p : Fin 2000) (o : Fin 64) :
    ((cfg5.win 5).blk t).view.emb (ix2 p o) = ix2 (rowOf t p) o := by
  have e := index_facts t
  funext a; apply Fin.ext
  match a with
  | ⟨0, _⟩ => show win5_5.index t (0 : Fin 2) * 2000 + 1 * p.val = t.val * 2000 + p.val; omega
  | ⟨1, _⟩ => show win5_5.index t (1 : Fin 2) * 64 + 1 * o.val = o.val; omega

/-- The moving input's tile at point t is the same rows of z. -/
theorem blk0 (c : Dev nD) (t : Fin cfg5.N) (p : Fin 2000) (l : Fin 64) :
    iblk5 V c 0 t (ix2 p l) = V c main_v102 (ix2 (rowOf t p) l) := by
  have e := index_facts t
  show V c main_v102 (((cfg5.win 0).blk t).view.emb (ix2 p l)) = V c main_v102 (ix2 (rowOf t p) l)
  refine congrArg (V c main_v102) (funext fun a => Fin.ext ?_)
  match a with
  | ⟨0, _⟩ => show win5_0.index t (0 : Fin 2) * 2000 + 1 * p.val = t.val * 2000 + p.val; omega
  | ⟨1, _⟩ => show win5_0.index t (1 : Fin 2) * 64 + 1 * l.val = l.val; omega

/-- A resident row's block at every point is the whole row. -/
theorem blk1 (c : Dev nD) (t : Fin cfg5.N) (k : Fin 64) :
    iblk5 V c 1 t (ix2 0 k) = V c main_v106 (ix2 0 k) := by
  have e := index_facts t
  show V c main_v106 (((cfg5.win 1).blk t).view.emb (ix2 0 k)) = V c main_v106 (ix2 0 k)
  refine congrArg (V c main_v106) (funext fun a => Fin.ext ?_)
  match a with
  | ⟨0, _⟩ => show win5_1.index t (0 : Fin 2) * 1 + 1 * 0 = 0; omega
  | ⟨1, _⟩ => show win5_1.index t (1 : Fin 2) * 64 + 1 * k.val = k.val; omega

theorem blk2 (c : Dev nD) (t : Fin cfg5.N) (k : Fin 64) :
    iblk5 V c 2 t (ix2 0 k) = V c main_v113 (ix2 0 k) := by
  have e := index_facts t
  show V c main_v113 (((cfg5.win 2).blk t).view.emb (ix2 0 k)) = V c main_v113 (ix2 0 k)
  refine congrArg (V c main_v113) (funext fun a => Fin.ext ?_)
  match a with
  | ⟨0, _⟩ => show win5_2.index t (0 : Fin 2) * 1 + 1 * 0 = 0; omega
  | ⟨1, _⟩ => show win5_2.index t (1 : Fin 2) * 64 + 1 * k.val = k.val; omega

theorem blk3 (c : Dev nD) (t : Fin cfg5.N) (k : Fin 64) :
    iblk5 V c 3 t (ix2 0 k) = V c main_v118 (ix2 0 k) := by
  have e := index_facts t
  show V c main_v118 (((cfg5.win 3).blk t).view.emb (ix2 0 k)) = V c main_v118 (ix2 0 k)
  refine congrArg (V c main_v118) (funext fun a => Fin.ext ?_)
  match a with
  | ⟨0, _⟩ => show win5_3.index t (0 : Fin 2) * 1 + 1 * 0 = 0; omega
  | ⟨1, _⟩ => show win5_3.index t (1 : Fin 2) * 64 + 1 * k.val = k.val; omega

theorem blk4 (c : Dev nD) (t : Fin cfg5.N) (k : Fin 64) :
    iblk5 V c 4 t (ix2 0 k) = V c main_v119 (ix2 0 k) := by
  have e := index_facts t
  show V c main_v119 (((cfg5.win 4).blk t).view.emb (ix2 0 k)) = V c main_v119 (ix2 0 k)
  refine congrArg (V c main_v119) (funext fun a => Fin.ext ?_)
  match a with
  | ⟨0, _⟩ => show win5_4.index t (0 : Fin 2) * 1 + 1 * 0 = 0; omega
  | ⟨1, _⟩ => show win5_4.index t (1 : Fin 2) * 64 + 1 * k.val = k.val; omega

/-- What point t writes back is tile t of the reference's normalisation of z, when the two statistics rows hold
    the reference's column means and variances of z and the scale and shift rows the vectors g and b. -/
theorem flushed_eq (c : Dev nD) (g b : Row Ideal)
    (hmean : ∀ k : Fin 64, V c main_v106 (ix2 0 k) = meanOf (F := Ideal) (V c main_v102) (ix1 k))
    (hvar : ∀ k : Fin 64, V c main_v113 (ix2 0 k) = varOf (F := Ideal) (V c main_v102) (ix1 k))
    (hg : ∀ k : Fin 64, V c main_v118 (ix2 0 k) = g (ix1 k)) (hb : ∀ k : Fin 64, V c main_v119 (ix2 0 k) = b (ix1 k))
    (t : Fin cfg5.N) :
    (dat5 V c).flushed 5 t = ((cfg5.win 5).blk t).view.read (Elt Ideal) (bnOf (F := Ideal) (V c main_v102) g b) := by
  show (cfg5.win 5).cut (grid5.coords t) ((dat5 V c).after 5 t) = _
  rw [after5_5]
  unfold out5_5
  rw [View.canon_unit_zero zero2]
  simp only [View.ld_unit_zero (S := S2000x64) zero2, View.ld_unit_zero (S := S1x64) zero2]
  funext j
  obtain ⟨p, o, rfl⟩ : ∃ (p : Fin 2000) (o : Fin 64), j = ix2 p o := ⟨j 0, j 1, eq_ix2 j⟩
  refine (k5_pay1_apply _ _ _ _ _ p o).trans ?_
  show _ = bnOf (F := Ideal) (V c main_v102) g b (((cfg5.win 5).blk t).view.emb (ix2 p o))
  rw [emb_out, bnOf_apply]
  simp only [blk0 V c t, blk1 V c t, blk2 V c t, blk3 V c t, blk4 V c t, hmean, hvar, hg, hb]

/-- An index of the output array is in point t's tile iff its row is one of the tile's 2000 rows. -/
theorem mem_blk (t : Fin cfg5.N) (i : S100000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole main_v120).slice (win5_5.rect t)).set ↔ _
  rw [View.set_slice_whole, Rect.mem_set_unit]
  exact Iff.rfl

/-- Every index of the output array lies in the tile of the point its row falls in. -/
theorem cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  let t : Fin cfg5.N := ⟨(i 0).val / 2000, by rw [show cfg5.N = 50 from N_5]; omega⟩
  have e := index_facts t
  have ht : t.val = (i 0).val / 2000 := rfl
  refine ⟨t, flush5_5 t, ?_⟩
  rw [mem_blk]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 64 ≤ (i 1).val ∧ (i 1).val < win5_5.index t (1 : Fin 2) * 64 + 64; omega

/-- The output array after the launch is the reference's normalisation of the array the launch was handed. -/
theorem out_eq (c : Dev nD) (g b : Row Ideal)
    (hmean : ∀ k : Fin 64, V c main_v106 (ix2 0 k) = meanOf (F := Ideal) (V c main_v102) (ix1 k))
    (hvar : ∀ k : Fin 64, V c main_v113 (ix2 0 k) = varOf (F := Ideal) (V c main_v102) (ix1 k))
    (hg : ∀ k : Fin 64, V c main_v118 (ix2 0 k) = g (ix1 k)) (hb : ∀ k : Fin 64, V c main_v119 (ix2 0 k) = b (ix1 k)) :
    (dat5 V c).arrAt 5 cfg5.N = bnOf (F := Ideal) (V c main_v102) g b :=
  (dat5 V c).arrAt_eq_of_cover 5 _ (fun t _ => flushed_eq V c g b hmean hvar hg hb t) cover

end Cert.KernelIdeal.GinRegion5

end
-- ==== Proof.GinChain.lean ====
/-
  The kernel program's result is the reference's.

  The kernel program's memory is followed from the launch to the return. Layer by layer: the host stretch before
  a perceptron launch computes the neighbourhood sums and slices the layer's parameters exactly as the reference
  does; the launch's output array is the reference's perceptron stage (the launch's region lemma); the next host
  stretch computes the column means and variances, which are the reference's; the normalisation launch's output
  array is the reference's normalised stage. After the third layer the pooling and the head are the same host
  operations in both programs, stretch by stretch. So the result buffer holds the reference's result stage.
-/
import proofs.«112492_j4681514352775_1_alg».proof.Proof.GinWalk
import proofs.«112492_j4681514352775_1_alg».proof.Proof.GinRef
import proofs.«112492_j4681514352775_1_alg».proof.Proof.GinKSpec
import proofs.«112492_j4681514352775_1_alg».proof.Proof.BnMath
import proofs.«112492_j4681514352775_1_alg».proof.Proof.RegionMlp0
import proofs.«112492_j4681514352775_1_alg».proof.Proof.RegionBn1
import proofs.«112492_j4681514352775_1_alg».proof.Proof.RegionMlp2
import proofs.«112492_j4681514352775_1_alg».proof.Proof.RegionBn3
import proofs.«112492_j4681514352775_1_alg».proof.Proof.RegionMlp4
import proofs.«112492_j4681514352775_1_alg».proof.Proof.RegionBn5
import proofs.«112492_j4681514352775_1_alg».proof.Proof.RefRead
import Idealize.ShloMosaic.Lib.Pipeline.Value
import Idealize.ShloMosaic.Lib.StableHlo.Run

set_option maxRecDepth 16384

noncomputable section

namespace Cert.KernelIdeal.GinChain

open Cert.KernelIdeal Cert.KernelIdeal.Gen Cert.KernelIdeal.GinWalk
open Idealize.ShloMosaic Idealize.ShloMosaic.TcCoe Idealize.ShloMosaic.ValueIdx Idealize.SL.Sem Idealize.ShloMosaic.StableHlo
open Cert.ReferenceIdeal.ReadP Cert.ReferenceIdeal.GinRef

variable (m : (ℓ : Loc nD τ sig) → Buf (Elt Ideal) ℓ) (ρ : Dev nD → PrngReg) (c : Dev nD)

/-- A vector of 64 entries viewed as one row of 64, read at column k. -/
theorem row_read (v : (⟨S64, .f32⟩ : BufTy).Contents (Elt Ideal)) (h : S64.ShapeCasts S1x64) (k : Fin 64) :
    shapeCast S1x64 v h (ix2 0 k) = v (ix1 k) :=
  shapeCast_apply v h (ix2 0 k) (ix1 k) (by
    rw [Shape.rowMajor_val_one, Shape.rowMajor_val_two]
    show k.val = 0 * 64 + k.val
    omega)

/-! ## The arguments and the edge lists, at the boundaries where they are read -/

theorem w1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl
theorem w1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl
theorem w4_v1 : W4 m ρ c (Proc.devRef .tc main_v1) = val_main_v1 (F := Ideal) (m ((c : Thread nD τ).loc main_arg1)) := by
  rw [keep_r1 m ρ c _ (by decide), down3 m ρ c _ (by decide), keep_r0 m ρ c _ (by decide)]; exact w1_v1 m ρ c
theorem w4_v3 : W4 m ρ c (Proc.devRef .tc main_v3) = val_main_v3 (F := Ideal) (m ((c : Thread nD τ).loc main_arg1)) := by
  rw [keep_r1 m ρ c _ (by decide), down3 m ρ c _ (by decide), keep_r0 m ρ c _ (by decide)]; exact w1_v3 m ρ c
theorem w8_v1 : W8 m ρ c (Proc.devRef .tc main_v1) = val_main_v1 (F := Ideal) (m ((c : Thread nD τ).loc main_arg1)) := by
  rw [keep_r3 m ρ c _ (by decide), down7 m ρ c _ (by decide), keep_r2 m ρ c _ (by decide), down5 m ρ c _ (by decide)]; exact w4_v1 m ρ c
theorem w8_v3 : W8 m ρ c (Proc.devRef .tc main_v3) = val_main_v3 (F := Ideal) (m ((c : Thread nD τ).loc main_arg1)) := by
  rw [keep_r3 m ρ c _ (by decide), down7 m ρ c _ (by decide), keep_r2 m ρ c _ (by decide), down5 m ρ c _ (by decide)]; exact w4_v3 m ρ c

theorem w2_a7 : W2 m ρ c (Proc.devRef .tc main_arg7) = (m ((c : Thread nD τ).loc main_arg7)) := by
  rw [keep_r0 m ρ c _ (by decide), down1 m ρ c _ (by decide)]
theorem w2_a8 : W2 m ρ c (Proc.devRef .tc main_arg8) = (m ((c : Thread nD τ).loc main_arg8)) := by
  rw [keep_r0 m ρ c _ (by decide), down1 m ρ c _ (by decide)]
theorem w4_a3 : W4 m ρ c (Proc.devRef .tc main_arg3) = (m ((c : Thread nD τ).loc main_arg3)) := by
  rw [keep_r1 m ρ c _ (by decide), down3 m ρ c _ (by decide), keep_r0 m ρ c _ (by decide), down1 m ρ c _ (by decide)]
theorem w4_a4 : W4 m ρ c (Proc.devRef .tc main_arg4) = (m ((c : Thread nD τ).loc main_arg4)) := by
  rw [keep_r1 m ρ c _ (by decide), down3 m ρ c _ (by decide), keep_r0 m ρ c _ (by decide), down1 m ρ c _ (by decide)]
theorem w4_a5 : W4 m ρ c (Proc.devRef .tc main_arg5) = (m ((c : Thread nD τ).loc main_arg5)) := by
  rw [keep_r1 m ρ c _ (by decide), down3 m ρ c _ (by decide), keep_r0 m ρ c _ (by decide), down1 m ρ c _ (by decide)]
theorem w4_a6 : W4 m ρ c (Proc.devRef .tc main_arg6) = (m ((c : Thread nD τ).loc main_arg6)) := by
  rw [keep_r1 m ρ c _ (by decide), down3 m ρ c _ (by decide), keep_r0 m ρ c _ (by decide), down1 m ρ c _ (by decide)]
theorem w6_a7 : W6 m ρ c (Proc.devRef .tc main_arg7) = (m ((c : Thread nD τ).loc main_arg7)) := by
  rw [keep_r2 m ρ c _ (by decide), down5 m ρ c _ (by decide), keep_r1 m ρ c _ (by decide), down3 m ρ c _ (by decide), keep_r0 m ρ c _ (by decide), down1 m ρ c _ (by decide)]
theorem w6_a8 : W6 m ρ c (Proc.devRef .tc main_arg8) = (m ((c : Thread nD τ).loc main_arg8)) := by
  rw [keep_r2 m ρ c _ (by decide), down5 m ρ c _ (by decide), keep_r1 m ρ c _ (by decide), down3 m ρ c _ (by decide), keep_r0 m ρ c _ (by decide), down1 m ρ c _ (by decide)]
theorem w8_a3 : W8 m ρ c (Proc.devRef .tc main_arg3) = (m ((c : Thread nD τ).loc main_arg3)) := by
  rw [keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w8_a4 : W8 m ρ c (Proc.devRef .tc main_arg4) = (m ((c : Thread nD τ).loc main_arg4)) := by
  rw [keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w8_a5 : W8 m ρ c (Proc.devRef .tc main_arg5) = (m ((c : Thread nD τ).loc main_arg5)) := by
  rw [keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w8_a6 : W8 m ρ c (Proc.devRef .tc main_arg6) = (m ((c : Thread nD τ).loc main_arg6)) := by
  rw [keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w10_a7 : W10 m ρ c (Proc.devRef .tc main_arg7) = (m ((c : Thread nD τ).loc main_arg7)) := by
  rw [keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w10_a8 : W10 m ρ c (Proc.devRef .tc main_arg8) = (m ((c : Thread nD τ).loc main_arg8)) := by
  rw [keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w12_a2 : W12 m ρ c (Proc.devRef .tc main_arg2) = (m ((c : Thread nD τ).loc main_arg2)) := by
  rw [keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w12_a9 : W12 m ρ c (Proc.devRef .tc main_arg9) = (m ((c : Thread nD τ).loc main_arg9)) := by
  rw [keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w12_a10 : W12 m ρ c (Proc.devRef .tc main_arg10) = (m ((c : Thread nD τ).loc main_arg10)) := by
  rw [keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w12_a11 : W12 m ρ c (Proc.devRef .tc main_arg11) = (m ((c : Thread nD τ).loc main_arg11)) := by
  rw [keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w12_a12 : W12 m ρ c (Proc.devRef .tc main_arg12) = (m ((c : Thread nD τ).loc main_arg12)) := by
  rw [keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w14_a13 : W14 m ρ c (Proc.devRef .tc main_arg13) = (m ((c : Thread nD τ).loc main_arg13)) := by
  rw [down14 m ρ c _ (by decide), down13 m ρ c _ (by decide), keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w14_a14 : W14 m ρ c (Proc.devRef .tc main_arg14) = (m ((c : Thread nD τ).loc main_arg14)) := by
  rw [down14 m ρ c _ (by decide), down13 m ρ c _ (by decide), keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w14_a15 : W14 m ρ c (Proc.devRef .tc main_arg15) = (m ((c : Thread nD τ).loc main_arg15)) := by
  rw [down14 m ρ c _ (by decide), down13 m ρ c _ (by decide), keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w14_a16 : W14 m ρ c (Proc.devRef .tc main_arg16) = (m ((c : Thread nD τ).loc main_arg16)) := by
  rw [down14 m ρ c _ (by decide), down13 m ρ c _ (by decide), keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w16_a17 : W16 m ρ c (Proc.devRef .tc main_arg17) = (m ((c : Thread nD τ).loc main_arg17)) := by
  rw [down16 m ρ c _ (by decide), down15 m ρ c _ (by decide), down14 m ρ c _ (by decide), down13 m ρ c _ (by decide), keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]
theorem w16_a18 : W16 m ρ c (Proc.devRef .tc main_arg18) = (m ((c : Thread nD τ).loc main_arg18)) := by
  rw [down16 m ρ c _ (by decide), down15 m ρ c _ (by decide), down14 m ρ c _ (by decide), down13 m ρ c _ (by decide), keep_r5 m ρ c _ (by decide), down11 m ρ c _ (by decide), keep_r4 m ρ c _ (by decide), down9 m ρ c _ (by decide), keep_r3 m ρ c _ (by decide), down7 m ρ c _ (by decide), keep_r2 m ρ c _ (by decide), down5 m ρ c _ (by decide), keep_r1 m ρ c _ (by decide), down3 m ρ c _ (by decide), keep_r0 m ρ c _ (by decide), down1 m ρ c _ (by decide)]

/-! ## Layer 1 -/

/-- The features the perceptron launch is handed are the previous stage. -/
theorem l1_h : V1 m ρ c main_arg0 = (m ((c : Thread nD τ).loc main_arg0)) := by
  show StableHlo.after hostOps0 (W0 m ρ c) (Proc.devRef .tc main_arg0) = _
  rw [keep_h0 _ _ (by decide)]
set_option maxHeartbeats 4000000 in
/-- The neighbourhood sums the host stretch computes are the reference's. -/
theorem l1_agg : V1 m ρ c main_v13 = val_main_v13 (F := Ideal) (m ((c : Thread nD τ).loc main_arg0)) (m ((c : Thread nD τ).loc main_arg1)) := by
  show StableHlo.after hostOps0 (W0 m ρ c) (Proc.devRef .tc main_v13) = _
  after_results_simp
  rfl
theorem l1_w1 : V1 m ρ c main_v15 = val_main_v16 (F := Ideal) (m ((c : Thread nD τ).loc main_arg3)) := by
  show StableHlo.after hostOps0 (W0 m ρ c) (Proc.devRef .tc main_v15) = _
  after_results
  rfl
theorem l1_w2 : V1 m ρ c main_v19 = val_main_v25 (F := Ideal) (m ((c : Thread nD τ).loc main_arg5)) := by
  show StableHlo.after hostOps0 (W0 m ρ c) (Proc.devRef .tc main_v19) = _
  after_results
  rfl
theorem l1_b1 : V1 m ρ c main_v22 = shapeCast S1x64 (val_main_v19 (F := Ideal) (m ((c : Thread nD τ).loc main_arg4))) shapeCasts_S64_S1x64 := by
  show StableHlo.after hostOps0 (W0 m ρ c) (Proc.devRef .tc main_v22) = _
  after_results
  rfl
theorem l1_b2 : V1 m ρ c main_v23 = shapeCast S1x64 (val_main_v28 (F := Ideal) (m ((c : Thread nD τ).loc main_arg6))) shapeCasts_S64_S1x64 := by
  show StableHlo.after hostOps0 (W0 m ρ c) (Proc.devRef .tc main_v23) = _
  after_results
  rfl

/-- The perceptron launch's output array is the reference's perceptron stage of layer 1. -/
theorem s1z : W2 m ρ c (Proc.devRef .tc main_v24) = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ?_
  refine (GinRegion0.out_eq (V1 m ρ) c (val_main_v19 (F := Ideal) (m ((c : Thread nD τ).loc main_arg4))) (val_main_v28 (F := Ideal) (m ((c : Thread nD τ).loc main_arg6))) (fun k => ?_) (fun k => ?_)).trans ?_
  · rw [l1_b1 m ρ c]; exact row_read _ _ k
  · rw [l1_b2 m ρ c]; exact row_read _ _ k
  · rw [l1_h m ρ c, l1_agg m ρ c, l1_w1 m ρ c, l1_w2 m ρ c]
    exact (z1_eq (F := Ideal) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6))).symm

/-- The perceptron's output, as the normalisation launch finds it. -/
theorem l1_z : V3 m ρ c main_v24 = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v24) = _
  rw [keep_h1 _ _ (by decide)]
  exact s1z m ρ c
/-- The mean row the host stretch computes, of that array. -/
theorem l1_mean : V3 m ρ c main_v28 = GinKSpec.meanRow (F := Ideal) (V3 m ρ c main_v24) := by
  rw [l1_z m ρ c]
  show StableHlo.after hostOps1 (W2 m ρ c) (Proc.devRef .tc main_v28) = _
  after_results
  rw [s1z m ρ c]
  rfl
/-- The variance row the host stretch computes, of that array. -/
theorem l1_var : V3 m ρ c main_v35 = GinKSpec.varRow (F := Ideal) (V3 m ρ c main_v24) := by
  rw [l1_z m ρ c]
  show StableHlo.after hostOps1 (W2 m ρ c) (Proc.devRef .tc main_v35) = _
  after_results
  rw [s1z m ρ c]
  rfl
theorem l1_g : V3 m ρ c main_v40 = shapeCast S1x64 (val_main_v33 (F := Ideal) (m ((c : Thread nD τ).loc main_arg7))) shapeCasts_S64_S1x64 := by
  show StableHlo.after hostOps1 (W2 m ρ c) (Proc.devRef .tc main_v40) = _
  after_results
  rw [w2_a7 m ρ c]
  rfl
theorem l1_b : V3 m ρ c main_v41 = shapeCast S1x64 (val_main_v35 (F := Ideal) (m ((c : Thread nD τ).loc main_arg8))) shapeCasts_S64_S1x64 := by
  show StableHlo.after hostOps1 (W2 m ρ c) (Proc.devRef .tc main_v41) = _
  after_results
  rw [w2_a8 m ρ c]
  rfl

/-- The normalisation launch's output array is the reference's stage after layer 1. -/
theorem s1h : W4 m ρ c (Proc.devRef .tc main_v42) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  refine (GinRegion1.out_eq (V3 m ρ) c (val_main_v33 (F := Ideal) (m ((c : Thread nD τ).loc main_arg7))) (val_main_v35 (F := Ideal) (m ((c : Thread nD τ).loc main_arg8))) (fun k => ?_) (fun k => ?_) (fun k => ?_) (fun k => ?_)).trans ?_
  · rw [l1_mean m ρ c]; exact Cert.GinBn.meanRow_apply _ k
  · rw [l1_var m ρ c]; exact Cert.GinBn.varRow_apply _ k
  · rw [l1_g m ρ c]; exact row_read _ _ k
  · rw [l1_b m ρ c]; exact row_read _ _ k
  · rw [l1_z m ρ c]
    exact (h1_eq (F := Ideal) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))).symm

/-! ## Layer 2 -/

/-- The features the perceptron launch is handed are the previous stage. -/
theorem l2_h : V5 m ρ c main_v42 = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v42) = _
  rw [keep_h2 _ _ (by decide)]
  exact s1h m ρ c
set_option maxHeartbeats 4000000 in
/-- The neighbourhood sums the host stretch computes are the reference's. -/
theorem l2_agg : V5 m ρ c main_v52 = val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v52) = _
  after_results_simp
  rw [s1h m ρ c, w4_v1 m ρ c, w4_v3 m ρ c]
  rfl
theorem l2_w1 : V5 m ρ c main_v54 = val_main_v74 (F := Ideal) (m ((c : Thread nD τ).loc main_arg3)) := by
  show StableHlo.after hostOps2 (W4 m ρ c) (Proc.devRef .tc main_v54) = _
  after_results
  rw [w4_a3 m ρ c]
  rfl
theorem l2_w2 : V5 m ρ c main_v58 = val_main_v83 (F := Ideal) (m ((c : Thread nD τ).loc main_arg5)) := by
  show StableHlo.after hostOps2 (W4 m ρ c) (Proc.devRef .tc main_v58) = _
  after_results
  rw [w4_a5 m ρ c]
  rfl
theorem l2_b1 : V5 m ρ c main_v61 = shapeCast S1x64 (val_main_v77 (F := Ideal) (m ((c : Thread nD τ).loc main_arg4))) shapeCasts_S64_S1x64 := by
  show StableHlo.after hostOps2 (W4 m ρ c) (Proc.devRef .tc main_v61) = _
  after_results
  rw [w4_a4 m ρ c]
  rfl
theorem l2_b2 : V5 m ρ c main_v62 = shapeCast S1x64 (val_main_v86 (F := Ideal) (m ((c : Thread nD τ).loc main_arg6))) shapeCasts_S64_S1x64 := by
  show StableHlo.after hostOps2 (W4 m ρ c) (Proc.devRef .tc main_v62) = _
  after_results
  rw [w4_a6 m ρ c]
  rfl

/-- The perceptron launch's output array is the reference's perceptron stage of layer 2. -/
theorem s2z : W6 m ρ c (Proc.devRef .tc main_v63) = val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ?_
  refine (GinRegion2.out_eq (V5 m ρ) c (val_main_v77 (F := Ideal) (m ((c : Thread nD τ).loc main_arg4))) (val_main_v86 (F := Ideal) (m ((c : Thread nD τ).loc main_arg6))) (fun k => ?_) (fun k => ?_)).trans ?_
  · rw [l2_b1 m ρ c]; exact row_read _ _ k
  · rw [l2_b2 m ρ c]; exact row_read _ _ k
  · rw [l2_h m ρ c, l2_agg m ρ c, l2_w1 m ρ c, l2_w2 m ρ c]
    exact (z2_eq (F := Ideal) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))).symm

/-- The perceptron's output, as the normalisation launch finds it. -/
theorem l2_z : V7 m ρ c main_v63 = val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) (Proc.devRef .tc main_v63) = _
  rw [keep_h3 _ _ (by decide)]
  exact s2z m ρ c
/-- The mean row the host stretch computes, of that array. -/
theorem l2_mean : V7 m ρ c main_v67 = GinKSpec.meanRow (F := Ideal) (V7 m ρ c main_v63) := by
  rw [l2_z m ρ c]
  show StableHlo.after hostOps3 (W6 m ρ c) (Proc.devRef .tc main_v67) = _
  after_results
  rw [s2z m ρ c]
  rfl
/-- The variance row the host stretch computes, of that array. -/
theorem l2_var : V7 m ρ c main_v74 = GinKSpec.varRow (F := Ideal) (V7 m ρ c main_v63) := by
  rw [l2_z m ρ c]
  show StableHlo.after hostOps3 (W6 m ρ c) (Proc.devRef .tc main_v74) = _
  after_results
  rw [s2z m ρ c]
  rfl
theorem l2_g : V7 m ρ c main_v79 = shapeCast S1x64 (val_main_v91 (F := Ideal) (m ((c : Thread nD τ).loc main_arg7))) shapeCasts_S64_S1x64 := by
  show StableHlo.after hostOps3 (W6 m ρ c) (Proc.devRef .tc main_v79) = _
  after_results
  rw [w6_a7 m ρ c]
  rfl
theorem l2_b : V7 m ρ c main_v80 = shapeCast S1x64 (val_main_v93 (F := Ideal) (m ((c : Thread nD τ).loc main_arg8))) shapeCasts_S64_S1x64 := by
  show StableHlo.after hostOps3 (W6 m ρ c) (Proc.devRef .tc main_v80) = _
  after_results
  rw [w6_a8 m ρ c]
  rfl

/-- The normalisation launch's output array is the reference's stage after layer 2. -/
theorem s2h : W8 m ρ c (Proc.devRef .tc main_v81) = val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 5).trans ?_
  refine (GinRegion3.out_eq (V7 m ρ) c (val_main_v91 (F := Ideal) (m ((c : Thread nD τ).loc main_arg7))) (val_main_v93 (F := Ideal) (m ((c : Thread nD τ).loc main_arg8))) (fun k => ?_) (fun k => ?_) (fun k => ?_) (fun k => ?_)).trans ?_
  · rw [l2_mean m ρ c]; exact Cert.GinBn.meanRow_apply _ k
  · rw [l2_var m ρ c]; exact Cert.GinBn.varRow_apply _ k
  · rw [l2_g m ρ c]; exact row_read _ _ k
  · rw [l2_b m ρ c]; exact row_read _ _ k
  · rw [l2_z m ρ c]
    exact (h2_eq (F := Ideal) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))).symm

/-! ## Layer 3 -/

/-- The features the perceptron launch is handed are the previous stage. -/
theorem l3_h : V9 m ρ c main_v81 = val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W8 m ρ c) (Proc.devRef .tc main_v81) = _
  rw [keep_h4 _ _ (by decide)]
  exact s2h m ρ c
set_option maxHeartbeats 4000000 in
/-- The neighbourhood sums the host stretch computes are the reference's. -/
theorem l3_agg : V9 m ρ c main_v91 = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W8 m ρ c) (Proc.devRef .tc main_v91) = _
  after_results_simp
  rw [s2h m ρ c, w8_v1 m ρ c, w8_v3 m ρ c]
  rfl
theorem l3_w1 : V9 m ρ c main_v93 = val_main_v132 (F := Ideal) (m ((c : Thread nD τ).loc main_arg3)) := by
  show StableHlo.after hostOps4 (W8 m ρ c) (Proc.devRef .tc main_v93) = _
  after_results
  rw [w8_a3 m ρ c]
  rfl
theorem l3_w2 : V9 m ρ c main_v97 = val_main_v141 (F := Ideal) (m ((c : Thread nD τ).loc main_arg5)) := by
  show StableHlo.after hostOps4 (W8 m ρ c) (Proc.devRef .tc main_v97) = _
  after_results
  rw [w8_a5 m ρ c]
  rfl
theorem l3_b1 : V9 m ρ c main_v100 = shapeCast S1x64 (val_main_v135 (F := Ideal) (m ((c : Thread nD τ).loc main_arg4))) shapeCasts_S64_S1x64 := by
  show StableHlo.after hostOps4 (W8 m ρ c) (Proc.devRef .tc main_v100) = _
  after_results
  rw [w8_a4 m ρ c]
  rfl
theorem l3_b2 : V9 m ρ c main_v101 = shapeCast S1x64 (val_main_v144 (F := Ideal) (m ((c : Thread nD τ).loc main_arg6))) shapeCasts_S64_S1x64 := by
  show StableHlo.after hostOps4 (W8 m ρ c) (Proc.devRef .tc main_v101) = _
  after_results
  rw [w8_a6 m ρ c]
  rfl

/-- The perceptron launch's output array is the reference's perceptron stage of layer 3. -/
theorem s3z : W10 m ρ c (Proc.devRef .tc main_v102) = val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 6).trans ?_
  refine (GinRegion4.out_eq (V9 m ρ) c (val_main_v135 (F := Ideal) (m ((c : Thread nD τ).loc main_arg4))) (val_main_v144 (F := Ideal) (m ((c : Thread nD τ).loc main_arg6))) (fun k => ?_) (fun k => ?_)).trans ?_
  · rw [l3_b1 m ρ c]; exact row_read _ _ k
  · rw [l3_b2 m ρ c]; exact row_read _ _ k
  · rw [l3_h m ρ c, l3_agg m ρ c, l3_w1 m ρ c, l3_w2 m ρ c]
    exact (z3_eq (F := Ideal) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))).symm

/-- The perceptron's output, as the normalisation launch finds it. -/
theorem l3_z : V11 m ρ c main_v102 = val_main_v147 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W10 m ρ c) (Proc.devRef .tc main_v102) = _
  rw [keep_h5 _ _ (by decide)]
  exact s3z m ρ c
/-- The mean row the host stretch computes, of that array. -/
theorem l3_mean : V11 m ρ c main_v106 = GinKSpec.meanRow (F := Ideal) (V11 m ρ c main_v102) := by
  rw [l3_z m ρ c]
  show StableHlo.after hostOps5 (W10 m ρ c) (Proc.devRef .tc main_v106) = _
  after_results
  rw [s3z m ρ c]
  rfl
/-- The variance row the host stretch computes, of that array. -/
theorem l3_var : V11 m ρ c main_v113 = GinKSpec.varRow (F := Ideal) (V11 m ρ c main_v102) := by
  rw [l3_z m ρ c]
  show StableHlo.after hostOps5 (W10 m ρ c) (Proc.devRef .tc main_v113) = _
  after_results
  rw [s3z m ρ c]
  rfl
theorem l3_g : V11 m ρ c main_v118 = shapeCast S1x64 (val_main_v149 (F := Ideal) (m ((c : Thread nD τ).loc main_arg7))) shapeCasts_S64_S1x64 := by
  show StableHlo.after hostOps5 (W10 m ρ c) (Proc.devRef .tc main_v118) = _
  after_results
  rw [w10_a7 m ρ c]
  rfl
theorem l3_b : V11 m ρ c main_v119 = shapeCast S1x64 (val_main_v151 (F := Ideal) (m ((c : Thread nD τ).loc main_arg8))) shapeCasts_S64_S1x64 := by
  show StableHlo.after hostOps5 (W10 m ρ c) (Proc.devRef .tc main_v119) = _
  after_results
  rw [w10_a8 m ρ c]
  rfl

/-- The normalisation launch's output array is the reference's stage after layer 3. -/
theorem s3h : W12 m ρ c (Proc.devRef .tc main_v120) = val_main_v177 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 5).trans ?_
  refine (GinRegion5.out_eq (V11 m ρ) c (val_main_v149 (F := Ideal) (m ((c : Thread nD τ).loc main_arg7))) (val_main_v151 (F := Ideal) (m ((c : Thread nD τ).loc main_arg8))) (fun k => ?_) (fun k => ?_) (fun k => ?_) (fun k => ?_)).trans ?_
  · rw [l3_mean m ρ c]; exact Cert.GinBn.meanRow_apply _ k
  · rw [l3_var m ρ c]; exact Cert.GinBn.varRow_apply _ k
  · rw [l3_g m ρ c]; exact row_read _ _ k
  · rw [l3_b m ρ c]; exact row_read _ _ k
  · rw [l3_z m ρ c]
    exact (h3_eq (F := Ideal) (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) (m ((c : Thread nD τ).loc main_arg7)) (m ((c : Thread nD τ).loc main_arg8))).symm

/-! ## Pooling and the head: the same host operations in both programs -/

theorem t1 : W13 m ρ c (Proc.devRef .tc main_v161) = val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps6 (W12 m ρ c) (Proc.devRef .tc main_v161) = _
  after_results_simp
  rw [s3h m ρ c, w12_a2 m ρ c, w12_a9 m ρ c, w12_a10 m ρ c, w12_a11 m ρ c, w12_a12 m ρ c]
  rfl
theorem t2 : W14 m ρ c (Proc.devRef .tc main_v162) = val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h1 := t1 m ρ c
  show StableHlo.after hostOps6_1 (W13 m ρ c) (Proc.devRef .tc main_v162) = _
  generalize W13 m ρ c = W at h1 ⊢
  after_results
  rw [h1]
  rfl
set_option maxHeartbeats 4000000 in
theorem t3 : W15 m ρ c (Proc.devRef .tc main_v191) = val_main_v248 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h2 := t2 m ρ c
  have h13 := w14_a13 m ρ c
  have h14 := w14_a14 m ρ c
  have h15 := w14_a15 m ρ c
  have h16 := w14_a16 m ρ c
  show StableHlo.after hostOps6_2 (W14 m ρ c) (Proc.devRef .tc main_v191) = _
  generalize W14 m ρ c = W at h2 h13 h14 h15 h16 ⊢
  after_results_simp
  rw [h2, h13, h14, h15, h16]
  rfl
theorem t4 : W16 m ρ c (Proc.devRef .tc main_v192) = val_main_v249 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h3 := t3 m ρ c
  show StableHlo.after hostOps6_3 (W15 m ρ c) (Proc.devRef .tc main_v192) = _
  generalize W15 m ρ c = W at h3 ⊢
  after_results
  rw [h3]
  rfl
/-- The result buffer holds the reference's result stage. -/
theorem t5 : W17 m ρ c (Proc.devRef .tc main_v196) = val_main_v253 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  have h4 := t4 m ρ c
  have h17 := w16_a17 m ρ c
  have h18 := w16_a18 m ρ c
  show StableHlo.after hostOps6_4 (W16 m ρ c) (Proc.devRef .tc main_v196) = _
  generalize W16 m ρ c = W at h4 h17 h18 ⊢
  after_results
  rw [h4, h17, h18]
  rfl

end Cert.KernelIdeal.GinChain

end
-- ==== Proof.RefKept.lean ====
/-
  The reference program never writes an argument.

  Its 308 host operations each produce one buffer of their own; the list below is those buffers in order. A buffer
  outside the list — every argument array — holds after the operations what it held before.
-/
import proofs.«112492_j4681514352775_1_alg».proof.Proof.RefOps

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The buffers the operations produce, in program order. -/
def produced : List (Ref sig .tc) :=
  [ main_v0, main_v1, main_v2, main_v3, main_c, main_v4, main_v5, main_c_0, main_v6, main_v7, main_v8, main_v9,
    main_v10, main_cst, main_v11, main_v12, main_v13, main_v14, main_v15, main_v16, main_v17, main_v18, main_v19, main_v20,
    main_v21, main_v22, main_call0_cst, main_call0_v0, main_v23, main_v24, main_v25, main_v26, main_v27, main_v28, main_v29, main_v30,
    main_v31, main_v32, main_v33, main_v34, main_v35, main_cst_1, main_v36, main_cst_2, main_v37, main_v38, main_v39, main_v40,
    main_v41, main_v42, main_cst_3, main_v43, main_cst_4, main_v44, main_v45, main_v46, main_v47, main_v48, main_v49, main_v50,
    main_v51, main_cst_5, main_v52, main_v53, main_v54, main_v55, main_v56, main_v57, main_v58, main_v59, main_v60, main_call1_cst,
    main_call1_v0, main_v61, main_c_6, main_v62, main_v63, main_c_7, main_v64, main_v65, main_v66, main_v67, main_v68, main_cst_8,
    main_v69, main_v70, main_v71, main_v72, main_v73, main_v74, main_v75, main_v76, main_v77, main_v78, main_v79, main_v80,
    main_call2_cst, main_call2_v0, main_v81, main_v82, main_v83, main_v84, main_v85, main_v86, main_v87, main_v88, main_v89, main_v90,
    main_v91, main_v92, main_v93, main_cst_9, main_v94, main_cst_10, main_v95, main_v96, main_v97, main_v98, main_v99, main_v100,
    main_cst_11, main_v101, main_cst_12, main_v102, main_v103, main_v104, main_v105, main_v106, main_v107, main_v108, main_v109, main_cst_13,
    main_v110, main_v111, main_v112, main_v113, main_v114, main_v115, main_v116, main_v117, main_v118, main_call3_cst, main_call3_v0, main_v119,
    main_c_14, main_v120, main_v121, main_c_15, main_v122, main_v123, main_v124, main_v125, main_v126, main_cst_16, main_v127, main_v128,
    main_v129, main_v130, main_v131, main_v132, main_v133, main_v134, main_v135, main_v136, main_v137, main_v138, main_call4_cst, main_call4_v0,
    main_v139, main_v140, main_v141, main_v142, main_v143, main_v144, main_v145, main_v146, main_v147, main_v148, main_v149, main_v150,
    main_v151, main_cst_17, main_v152, main_cst_18, main_v153, main_v154, main_v155, main_v156, main_v157, main_v158, main_cst_19, main_v159,
    main_cst_20, main_v160, main_v161, main_v162, main_v163, main_v164, main_v165, main_v166, main_v167, main_cst_21, main_v168, main_v169,
    main_v170, main_v171, main_v172, main_v173, main_v174, main_v175, main_v176, main_call5_cst, main_call5_v0, main_v177, main_cst_22, main_v178,
    main_v179, main_v180, main_cst_23, main_v181, main_cst_24, main_v182, main_v183, main_v184, main_cst_25, main_v185, main_v186, main_v187,
    main_v188, main_v189, main_v190, main_v191, main_v192, main_v193, main_cst_26, main_v194, main_cst_27, main_v195, main_v196, main_v197,
    main_v198, main_v199, main_v200, main_cst_28, main_v201, main_cst_29, main_v202, main_v203, main_v204, main_v205, main_v206, main_v207,
    main_v208, main_v209, main_cst_30, main_v210, main_v211, main_v212, main_v213, main_v214, main_v215, main_v216, main_v217, main_v218,
    main_call6_cst, main_call6_v0, main_v219, main_v220, main_v221, main_v222, main_v223, main_cst_31, main_v224, main_cst_32, main_v225, main_v226,
    main_v227, main_v228, main_v229, main_v230, main_cst_33, main_v231, main_cst_34, main_v232, main_v233, main_v234, main_v235, main_v236,
    main_v237, main_v238, main_v239, main_cst_35, main_v240, main_v241, main_v242, main_v243, main_v244, main_v245, main_v246, main_v247,
    main_v248, main_call7_cst, main_call7_v0, main_v249, main_v250, main_v251, main_v252, main_v253 ]

set_option maxHeartbeats 4000000 in
/-- Each operation writes only its own buffer, which is in the list. -/
theorem writes_sub : (ops : List (HloOp τ sig (Elt F))).Forall fun op =>
    op.writes ⊆ (produced.map (Proc.devRef (τ := τ) .tc)).toFinset := by
  simp only [ops, List.Forall, nullary_writes, unary_writes, binary_writes, ternary_writes, quaternary_writes, reshape_writes,
    binaryIndexed_writes, Finset.singleton_subset_iff]
  repeat' apply And.intro
  all_goals exact List.mem_toFinset.mpr (List.mem_map.mpr ⟨_, by decide, rfl⟩)

/-- A buffer no operation produces is unchanged by the program. -/
theorem kept (V : Valuation τ sig (Elt F)) (r : Ref sig .tc) (hr : r ∉ produced) :
    after (ops : List (HloOp τ sig (Elt F))) V (Proc.devRef .tc r) = V (Proc.devRef .tc r) :=
  after_of_writes_sub ops V writes_sub hr

end Cert.ReferenceIdeal.ValueP

end
-- ==== Proof.RefResult.lean ====
/-
  What the reference program leaves in its result buffer.

  Running the 308 operations in order from the launch memory, the result buffer ends at the composition of the
  operations along the data flow from the arguments; that composition is the staged function val_main_v253, whose
  definition follows the program one operation at a time.
-/
import proofs.«112492_j4681514352775_1_alg».proof.Proof.RefOps
import proofs.«112492_j4681514352775_1_alg».proof.Proof.RefRead

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 123200000 in
/-- The fold of the operations over the launch memory, at the result buffer, is the result stage of the arguments. -/
theorem result_eq (m : (ℓ : Loc nD τ sig) → Buf (Elt F) ℓ) (c : Dev nD) :
    after (ops : List (HloOp τ sig (Elt F))) (launchContents m c) (Proc.devRef .tc main_v253)
      = Cert.ReferenceIdeal.ReadP.val_main_v253 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  after_results_simp <;> rfl

end Cert.ReferenceIdeal.ValueP

end
-- ==== Proof.RefRun.lean ====
/-
  The reference program's run.

  The program is a straight line of host operations, so every weakly fair execution terminates without a fault and
  leaves each buffer at the fold of the operations over the launch memory. At the result buffer that fold is the
  result stage of the arguments; at an argument it is the launch contents, since no operation writes an argument.
-/
import proofs.«112492_j4681514352775_1_alg».proof.Proof.RefOps
import proofs.«112492_j4681514352775_1_alg».proof.Proof.RefRead
import proofs.«112492_j4681514352775_1_alg».proof.Proof.RefKept
import proofs.«112492_j4681514352775_1_alg».proof.Proof.RefResult

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- On every device, from any memory with zero counters: every weakly fair execution of @main terminates with the
    result at the result stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v253) = Cert.ReferenceIdeal.ReadP.val_main_v253 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v253).trans (result_eq m c),
      (h c main_arg0).trans (kept _ main_arg0 (by decide)),
      (h c main_arg1).trans (kept _ main_arg1 (by decide)),
      (h c main_arg2).trans (kept _ main_arg2 (by decide)),
      (h c main_arg3).trans (kept _ main_arg3 (by decide)),
      (h c main_arg4).trans (kept _ main_arg4 (by decide)),
      (h c main_arg5).trans (kept _ main_arg5 (by decide)),
      (h c main_arg6).trans (kept _ main_arg6 (by decide)),
      (h c main_arg7).trans (kept _ main_arg7 (by decide)),
      (h c main_arg8).trans (kept _ main_arg8 (by decide)),
      (h c main_arg9).trans (kept _ main_arg9 (by decide)),
      (h c main_arg10).trans (kept _ main_arg10 (by decide)),
      (h c main_arg11).trans (kept _ main_arg11 (by decide)),
      (h c main_arg12).trans (kept _ main_arg12 (by decide)),
      (h c main_arg13).trans (kept _ main_arg13 (by decide)),
      (h c main_arg14).trans (kept _ main_arg14 (by decide)),
      (h c main_arg15).trans (kept _ main_arg15 (by decide)),
      (h c main_arg16).trans (kept _ main_arg16 (by decide)),
      (h c main_arg17).trans (kept _ main_arg17 (by decide)),
      (h c main_arg18).trans (kept _ main_arg18 (by decide))⟩)
    (run_seq scopedRefs_eq scopedSems_eq defs main (fun _ => ops) main_eq (fun _ => ops_sub) m ρ)

end Cert.ReferenceIdeal.ValueP

end
-- ==== Proof.GinClaims.lean ====
/-
  The value claim: the two idealised programs end with the same result.

  The kernel program's run leaves its result buffer at the value of the fold of its segments, which is the
  reference's result stage of the arguments; the reference's run leaves its result at that same stage of its own
  arguments, and the two argument lists agree.
-/
import proofs.«112492_j4681514352775_1_alg».proof.Defs
import proofs.«112492_j4681514352775_1_alg».proof.Proof.Gen.Pre_finite_inputs
import proofs.«112492_j4681514352775_1_alg».proof.Proof.GinRun
import proofs.«112492_j4681514352775_1_alg».proof.Proof.GinChain
import proofs.«112492_j4681514352775_1_alg».proof.Proof.RefRun

set_option maxRecDepth 16384

noncomputable section

namespace Cert.Proof.GinClaims

open Idealize.ShloMosaic Idealize.SL.Sem

/-- Both idealised programs, from memories agreeing on the arguments, end with the same result: the kernel
    program's run leaves the result buffer at the fold's value, which is the reference's result stage of the
    arguments, and the reference's run leaves its result at that stage. -/
theorem algebraic : Cert.algebraic_KernelIdeal_ReferenceIdeal := by
  intro m ρ m' ρ' _ hagree
  refine ⟨fun c => Cert.KernelIdeal.Gen.W17 m ρ c (Proc.devRef .tc Cert.KernelIdeal.main_v196), Cert.KernelIdeal.GinRun.run_result (F := Ideal) m ρ, ?_⟩
  refine (θ_run Cert.ReferenceIdeal.defs _ _).mono (fun r h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
  exact (Cert.KernelIdeal.GinChain.t5 m ρ c).symm

end Cert.Proof.GinClaims

end
-- ==== Proof.lean ====
/-
  The certificate of the three-layer graph network: the tiled kernel program against its plain reference.

  Each layer is a neighbourhood sum, a two-layer perceptron and a batch normalisation with relu; after the third
  layer the node features are pooled per graph and a small head is applied. The kernel program runs the perceptron
  and the normalisation of each layer as launches over tiles of 2000 rows and keeps the rest on the host, where it
  is the reference's own operations. At the exact values both programs compute the same function of the arguments:
  a launch's output array is the reference's stage (its tiles cover every row, and on a row the body is the
  reference's expression), and the statistics between the launches are the reference's up to how a vector of 64
  entries is laid out. The three frame claims are the generated ones; nothing was rewritten by the idealisation.
-/
import proofs.«112492_j4681514352775_1_alg».proof.Defs
import proofs.«112492_j4681514352775_1_alg».proof.Proof.Gen.Kernel
import proofs.«112492_j4681514352775_1_alg».proof.Proof.Gen.Kernel.Skeleton
import proofs.«112492_j4681514352775_1_alg».proof.Proof.Gen.Kernel.Launch
import proofs.«112492_j4681514352775_1_alg».proof.Proof.Gen.Kernel.Points
import proofs.«112492_j4681514352775_1_alg».proof.Proof.Gen.Kernel.Frame
import proofs.«112492_j4681514352775_1_alg».proof.Proof.Gen.KernelIdeal
import proofs.«112492_j4681514352775_1_alg».proof.Proof.Gen.KernelIdeal.Skeleton
import proofs.«112492_j4681514352775_1_alg».proof.Proof.Gen.KernelIdeal.Launch
import proofs.«112492_j4681514352775_1_alg».proof.Proof.Gen.KernelIdeal.Points
import proofs.«112492_j4681514352775_1_alg».proof.Proof.Gen.KernelIdeal.Frame
import proofs.«112492_j4681514352775_1_alg».proof.Proof.Gen.ReferenceIdeal
import proofs.«112492_j4681514352775_1_alg».proof.Proof.Gen.Pre_finite_inputs
import proofs.«112492_j4681514352775_1_alg».proof.Proof.GinClaims
import proofs.«112492_j4681514352775_1_alg».proof.Proof.RefRun
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.GinClaims.algebraic⟩

end Cert.Proof

end
